-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1600000 : Shape := ⟨1, ![1600000]⟩
abbrev S5000x128 : Shape := ⟨2, ![5000, 128]⟩
abbrev S3x128x128 : Shape := ⟨3, ![3, 128, 128]⟩
abbrev S3x128 : Shape := ⟨2, ![3, 128]⟩
abbrev S_ : Shape := ⟨0, ![]⟩

class Facts : Prop where
  bcast_S_S5000x128 : S_.BroadcastsInDim S5000x128 (![] : Fin 0 → Fin S5000x128.rank)
  reducesTo_S5000x128_S_d0_1 : S5000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : IVec S100000 32) (main_arg1 : IVec S1600000 32) (main_arg2 : IVec S1600000 32) (main_arg3 : FVec F S5000x128 .f32) (main_arg4 : FVec F S3x128x128 .f32) (main_arg5 : FVec F S3x128x128 .f32) (main_arg6 : FVec F S3x128 .f32) : IVec S_ 1 :=
  let main_v0 : FVec F S5000x128 .f32 := Host.absf main_arg3
  let main_cst : FVec F S_ .f32 := constant S_ .f32 0x7F800000#32
  let main_v1 : FVec F S5000x128 .f32 := broadcastInDim S5000x128 ![] bcast_S_S5000x128 main_cst
  let main_v2 : IVec S5000x128 1 := cmpf .olt main_v0 main_v1
  let main_c : IVec S_ 1 := constantI S_ 1 1#1
  let main_v3 : IVec S_ 1 := (fun x v => Host.reduce IntOp.andi x v reducesTo_S5000x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg5
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg6
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S100000 : Shape := ⟨1, ![100000]⟩
abbrev S1600000 : Shape := ⟨1, ![1600000]⟩
abbrev S5000x128 : Shape := ⟨2, ![5000, 128]⟩
abbrev S3x128x128 : Shape := ⟨3, ![3, 128, 128]⟩
abbrev S3x128 : Shape := ⟨2, ![3, 128]⟩
abbrev S_ : Shape := ⟨0, ![]⟩
abbrev S100000x1 : Shape := ⟨2, ![100000, 1]⟩
abbrev S100000x128 : Shape := ⟨2, ![100000, 128]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S2000 : Shape := ⟨1, ![2000]⟩
abbrev S2000x1 : Shape := ⟨2, ![2000, 1]⟩

abbrev nBuf : Space → Nat
  | .hbm => 100
  | .vmem => 33
  | .smem => 0
  | _ => 0

abbrev bufTy : (tb : Table) → Fin (tcTables nBuf tb) → BufTy
  | .hbm, ⟨0, _⟩ => ⟨S100000, .i32⟩
  | .hbm, ⟨1, _⟩ => ⟨S1600000, .i32⟩
  | .hbm, ⟨2, _⟩ => ⟨S1600000, .i32⟩
  | .hbm, ⟨3, _⟩ => ⟨S5000x128, .f32⟩
  | .hbm, ⟨4, _⟩ => ⟨S3x128x128, .f32⟩
  | .hbm, ⟨5, _⟩ => ⟨S3x128x128, .f32⟩
  | .hbm, ⟨6, _⟩ => ⟨S3x128, .f32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S100000x128, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S1x128x128, .f32⟩
  | .hbm, ⟨45, _⟩ => ⟨S128x128, .f32⟩
  | .hbm, ⟨46, _⟩ => ⟨S1x128x128, .f32⟩
  | .hbm, ⟨47, _⟩ => ⟨S128x128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S1x128x128, .f32⟩
  | .hbm, ⟨69, _⟩ => ⟨S128x128, .f32⟩
  | .hbm, ⟨70, _⟩ => ⟨S1x128x128, .f32⟩
  | .hbm, ⟨71, _⟩ => ⟨S128x128, .f32⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x1, .f32⟩
  | .hbm, ⟨90, _⟩ => ⟨S100000x128, .f32⟩
  | .hbm, ⟨91, _⟩ => ⟨S100000x128, .f32⟩
  | .hbm, ⟨92, _⟩ => ⟨S1x128x128, .f32⟩
  | .hbm, ⟨93, _⟩ => ⟨S128x128, .f32⟩
  | .hbm, ⟨94, _⟩ => ⟨S1x128x128, .f32⟩
  | .hbm, ⟨95, _⟩ => ⟨S128x128, .f32⟩
  | .hbm, ⟨96, _⟩ => ⟨S1x128, .f32⟩
  | .hbm, ⟨97, _⟩ => ⟨S128, .f32⟩
  | .hbm, ⟨98, _⟩ => ⟨S1x128, .f32⟩
  | .hbm, ⟨99, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_10 : Ref sig .tc := ⟨.hbm, 76, rfl⟩
abbrev main_v57 : Ref sig .tc := ⟨.hbm, 77, rfl⟩
abbrev main_v58 : Ref sig .tc := ⟨.hbm, 78, rfl⟩
abbrev main_c_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S5000x128_S100000x1_S100000x128_1_0_n_n_0_1_1128_wf : GatherDims.WF S5000x128 S100000x1 S100000x128 [1] [0] [] [0] [] 1 ![1, 128]
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)

variable [Facts₀]

def gather_S5000x128_S100000x1_S100000x128_1_0_n_n_0_1_1128 : GatherDims S5000x128 S100000x1 S100000x128 where
  offsetDims := [1]
  collapsedSliceDims := [0]
  operandBatchingDims := []
  startIndicesBatchingDims := []
  startIndexMap := [0]
  indexVectorDim := 1
  sliceSizes := ![1, 128]
  wf := gather_S5000x128_S100000x1_S100000x128_1_0_n_n_0_1_1128_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v6) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v56) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v71) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v77) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000 : Shape := ⟨1, ![100000]⟩
abbrev S1600000 : Shape := ⟨1, ![1600000]⟩
abbrev S5000x128 : Shape := ⟨2, ![5000, 128]⟩
abbrev S3x128x128 : Shape := ⟨3, ![3, 128, 128]⟩
abbrev S3x128 : Shape := ⟨2, ![3, 128]⟩
abbrev S_ : Shape := ⟨0, ![]⟩
abbrev S100000x1 : Shape := ⟨2, ![100000, 1]⟩
abbrev S100000x128 : Shape := ⟨2, ![100000, 128]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 154
  | .vmem => 0
  | .smem => 0
  | _ => 0

abbrev hbmTy0_0 (i : Nat) : BufTy := match i % 128 with
  | 0 => ⟨S100000, .i32⟩
  | 1 => ⟨S1600000, .i32⟩
  | 2 => ⟨S1600000, .i32⟩
  | 3 => ⟨S5000x128, .f32⟩
  | 4 => ⟨S3x128x128, .f32⟩
  | 5 => ⟨S3x128x128, .f32⟩
  | 6 => ⟨S3x128, .f32⟩
  | 7 => ⟨S_, .i32⟩
  | 8 => ⟨S100000, .i32⟩
  | 9 => ⟨S100000, .i1⟩
  | 10 => ⟨S_, .i32⟩
  | 11 => ⟨S100000, .i32⟩
  | 12 => ⟨S100000, .i32⟩
  | 13 => ⟨S100000, .i32⟩
  | 14 => ⟨S100000x1, .i32⟩
  | 15 => ⟨S100000x128, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x1, .f32⟩
  | 42 => ⟨S100000x128, .f32⟩
  | 43 => ⟨S100000x128, .f32⟩
  | 44 => ⟨S1x128x128, .f32⟩
  | 45 => ⟨S128x128, .f32⟩
  | 46 => ⟨S100000x128, .f32⟩
  | 47 => ⟨S1x128x128, .f32⟩
  | 48 => ⟨S128x128, .f32⟩
  | 49 => ⟨S100000x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S_, .f32⟩
  | 61 => ⟨S100000, .f32⟩
  | 62 => ⟨S100000x1, .f32⟩
  | 63 => ⟨S100000x1, .f32⟩
  | 64 => ⟨S_, .f32⟩
  | 65 => ⟨S100000x1, .f32⟩
  | 66 => ⟨S100000x1, .f32⟩
  | 67 => ⟨S100000x128, .f32⟩
  | 68 => ⟨S100000x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S100000x1, .f32⟩
  | 84 => ⟨S100000x128, .f32⟩
  | 85 => ⟨S100000x128, .f32⟩
  | 86 => ⟨S1x128x128, .f32⟩
  | 87 => ⟨S128x128, .f32⟩
  | 88 => ⟨S100000x128, .f32⟩
  | 89 => ⟨S1x128x128, .f32⟩
  | 90 => ⟨S128x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S_, .f32⟩
  | 103 => ⟨S100000, .f32⟩
  | 104 => ⟨S100000x1, .f32⟩
  | 105 => ⟨S100000x1, .f32⟩
  | 106 => ⟨S_, .f32⟩
  | 107 => ⟨S100000x1, .f32⟩
  | 108 => ⟨S100000x1, .f32⟩
  | 109 => ⟨S100000x128, .f32⟩
  | 110 => ⟨S100000x128, .f32⟩
  | 111 => ⟨S100000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S100000x1, .f32⟩
  | 126 => ⟨S100000x128, .f32⟩
  | 127 => ⟨S100000x128, .f32⟩
  | _ => ⟨S100000, .i32⟩

abbrev hbmTy0_1 (i : Nat) : BufTy := match i % 128 with
  | 0 => ⟨S1x128x128, .f32⟩
  | 1 => ⟨S128x128, .f32⟩
  | 2 => ⟨S100000x128, .f32⟩
  | 3 => ⟨S1x128x128, .f32⟩
  | 4 => ⟨S128x128, .f32⟩
  | 5 => ⟨S100000x128, .f32⟩
  | 6 => ⟨S100000x128, .f32⟩
  | 7 => ⟨S1x128, .f32⟩
  | 8 => ⟨S128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S_, .f32⟩
  | 17 => ⟨S100000, .f32⟩
  | 18 => ⟨S100000x1, .f32⟩
  | 19 => ⟨S100000x1, .f32⟩
  | 20 => ⟨S_, .f32⟩
  | 21 => ⟨S100000x1, .f32⟩
  | 22 => ⟨S100000x1, .f32⟩
  | 23 => ⟨S100000x128, .f32⟩
  | 24 => ⟨S100000x128, .f32⟩
  | 25 => ⟨S100000x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_call1_v0 : Ref sig .tc := ⟨.hbm, 59, rfl⟩
abbrev main_call1_cst : Ref sig .tc := ⟨.hbm, 60, rfl⟩
abbrev main_call1_v1 : Ref sig .tc := ⟨.hbm, 61, rfl⟩
abbrev main_call1_v2 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_8 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call2_cst : Ref sig .tc := ⟨.hbm, 98, rfl⟩
abbrev main_call2_v0 : Ref sig .tc := ⟨.hbm, 99, rfl⟩
abbrev main_v72 : Ref sig .tc := ⟨.hbm, 100, rfl⟩
abbrev main_call3_v0 : Ref sig .tc := ⟨.hbm, 101, rfl⟩
abbrev main_call3_cst : Ref sig .tc := ⟨.hbm, 102, rfl⟩
abbrev main_call3_v1 : Ref sig .tc := ⟨.hbm, 103, rfl⟩
abbrev main_call3_v2 : Ref sig .tc := ⟨.hbm, 104, rfl⟩
abbrev main_v73 : Ref sig .tc := ⟨.hbm, 105, rfl⟩
abbrev main_cst_11 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_12 : Ref sig .tc := ⟨.hbm, 112, rfl⟩
abbrev main_v79 : Ref sig .tc := ⟨.hbm, 113, rfl⟩
abbrev main_v80 : Ref sig .tc := ⟨.hbm, 114, rfl⟩
abbrev main_c_13 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_14 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_call4_cst : Ref sig .tc := ⟨.hbm, 140, rfl⟩
abbrev main_call4_v0 : Ref sig .tc := ⟨.hbm, 141, rfl⟩
abbrev main_v104 : Ref sig .tc := ⟨.hbm, 142, rfl⟩
abbrev main_call5_v0 : Ref sig .tc := ⟨.hbm, 143, rfl⟩
abbrev main_call5_cst : Ref sig .tc := ⟨.hbm, 144, rfl⟩
abbrev main_call5_v1 : Ref sig .tc := ⟨.hbm, 145, rfl⟩
abbrev main_call5_v2 : Ref sig .tc := ⟨.hbm, 146, rfl⟩
abbrev main_v105 : Ref sig .tc := ⟨.hbm, 147, rfl⟩
abbrev main_cst_15 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S5000x128_S100000x1_S100000x128_1_0_n_n_0_1_1128_wf : GatherDims.WF S5000x128 S100000x1 S100000x128 [1] [0] [] [0] [] 1 ![1, 128]
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S5000x128_S100000x1_S100000x128_1_0_n_n_0_1_1128 : GatherDims S5000x128 S100000x1 S100000x128 where
  offsetDims := [1]
  collapsedSliceDims := [0]
  operandBatchingDims := []
  startIndicesBatchingDims := []
  startIndexMap := [0]
  indexVectorDim := 1
  sliceSizes := ![1, 128]
  wf := gather_S5000x128_S100000x1_S100000x128_1_0_n_n_0_1_1128_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KData.lean ====
/-
  The three layers of the network as three pipelined calls: for each call, the blocks its windows read, the block its
  body stores, and the data the pipeline's frame rule is instantiated with; then the contents of every buffer at each
  boundary between a stretch of host operations and a call, folded from the launch memory.

  Each call walks the 100000 rows in 50 row blocks of 2000. At a point the body reads the row block of the features,
  of the neighbour means and of the embedding, the two whole 128x128 weight matrices and the bias row, and stores the
  layer's value on that row block. In the first call the features and the embedding are one and the same array, read by
  two windows: the array's ownership is dealt to the two windows in two halves.
-/
import proofs.«155506_j4097398800995_1_alg».proof.Proof.Gen.Kernel.Launch
import proofs.«155506_j4097398800995_1_alg».proof.Proof.Gen.Kernel.Skeleton
import proofs.«155506_j4097398800995_1_alg».proof.Proof.Gen.Kernel.Points
import proofs.«155506_j4097398800995_1_alg».proof.Proof.Gen.Kernel.Regions
import Idealize.ShloMosaic.Lib.Pipeline.FrameBody
import Idealize.ShloMosaic.Lib.Pipeline.Frame
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole row block, the whole weight matrix and the whole bias row as rectangles: every access of the body is one of them. -/
abbrev rA : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The two halves of full ownership: what each of two windows reading one array holds of it. -/
def qL : PosShare TreeShare := PosShare.left fullShare
def qR : PosShare TreeShare := PosShare.right fullShare
/-- The two halves make the whole. -/
theorem qL_qR : fullShare ∈ PCS.op qL qR := PosShare.mem_left_op_right fullShare

section Calls
variable (V : (c : Dev nD) → (b : Ref sig .tc) → Buf (Elt F) ((c : Thread nD τ).loc b))

/-! ## Layer 0: the call's blocks, what its body stores, its proof data -/

/-- Window `w`'s block at grid point `t` of call 0, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block of call 0 after its body: the one whole-block store of the layer's value on the row block of the
    features `x0`, of the neighbour means `x1` and of the embedding `x2`, the two weight matrices `x3`, `x4` and the bias row `x5`. -/
def out0_6 (x0 x1 x2 : Vec F S2000x128 .f32) (x3 x4 : Vec F S128x128 .f32) (x5 : Vec F S1x128 .f32) : Vec F S2000x128 .f32 :=
  View.canon [⟨rA, k0_pay1 (View.ld x0 rA) (View.ld x1 rA) (View.ld x3 rW) (View.ld x4 rW) (View.ld x5 rB) (View.ld x2 rA)⟩]

/-- The proof data of call 0: every input block stays as fetched, the output block is the layer's value on the
    input blocks of the same point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := if w = 0 then qL else if w = 2 then qR else fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-! ## Layer 1: the call's blocks, what its body stores, its proof data -/

/-- Window `w`'s block at grid point `t` of call 1, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block of call 1 after its body: the one whole-block store of the layer's value on the row block of the
    features `x0`, of the neighbour means `x1` and of the embedding `x2`, the two weight matrices `x3`, `x4` and the bias row `x5`. -/
def out1_6 (x0 x1 x2 : Vec F S2000x128 .f32) (x3 x4 : Vec F S128x128 .f32) (x5 : Vec F S1x128 .f32) : Vec F S2000x128 .f32 :=
  View.canon [⟨rA, k1_pay1 (View.ld x0 rA) (View.ld x1 rA) (View.ld x3 rW) (View.ld x4 rW) (View.ld x5 rB) (View.ld x2 rA)⟩]

/-- The proof data of call 1: every input block stays as fetched, the output block is the layer's value on the
    input blocks of the same point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-! ## Layer 2: the call's blocks, what its body stores, its proof data -/

/-- Window `w`'s block at grid point `t` of call 2, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block of call 2 after its body: the one whole-block store of the layer's value on the row block of the
    features `x0`, of the neighbour means `x1` and of the embedding `x2`, the two weight matrices `x3`, `x4` and the bias row `x5`. -/
def out2_6 (x0 x1 x2 : Vec F S2000x128 .f32) (x3 x4 : Vec F S128x128 .f32) (x5 : Vec F S1x128 .f32) : Vec F S2000x128 .f32 :=
  View.canon [⟨rA, k2_pay1 (View.ld x0 rA) (View.ld x1 rA) (View.ld x3 rW) (View.ld x4 rW) (View.ld x5 rB) (View.ld x2 rA)⟩]

/-- The proof data of call 2: every input block stays as fetched, the output block is the layer's value on the
    input blocks of the same point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

end Calls

/-! ## The buffers' contents at each boundary -/

variable (m : (ℓ : Loc nD τ sig) → Buf (Elt F) ℓ)

/-- At launch. -/
def W0 (c : Dev nD) : Valuation τ sig (Elt F) := fun b => m (c, b)
/-- After the host operations before the first call. -/
def W1 (c : Dev nD) : Valuation τ sig (Elt F) := StableHlo.after hostOps0 (W0 m c)
abbrev V1 : (c : Dev nD) → (b : Ref sig .tc) → Buf (Elt F) ((c : Thread nD τ).loc b) := fun c b => W1 m c b
/-- After the first call: its result array holds what the call's write-backs leave. -/
def W2 (c : Dev nD) : Valuation τ sig (Elt F) := Function.update (W1 m c) main_v35 ((dat0 (V1 m) c).arrAt 6 cfg0.N)
def W3 (c : Dev nD) : Valuation τ sig (Elt F) := StableHlo.after hostOps1 (W2 m c)
abbrev V3 : (c : Dev nD) → (b : Ref sig .tc) → Buf (Elt F) ((c : Thread nD τ).loc b) := fun c b => W3 m c b
def W4 (c : Dev nD) : Valuation τ sig (Elt F) := Function.update (W3 m c) main_v56 ((dat1 (V3 m) c).arrAt 6 cfg1.N)
def W5 (c : Dev nD) : Valuation τ sig (Elt F) := StableHlo.after hostOps2 (W4 m c)
abbrev V5 : (c : Dev nD) → (b : Ref sig .tc) → Buf (Elt F) ((c : Thread nD τ).loc b) := fun c b => W5 m c b
def W6 (c : Dev nD) : Valuation τ sig (Elt F) := Function.update (W5 m c) main_v77 ((dat2 (V5 m) c).arrAt 6 cfg2.N)

/-- The three calls' proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

end Cert.Kernel.Hand

end
-- ==== Proof.KBody.lean ====
/-
  The bodies of the three pipelined calls, one per layer of the network.

  At a grid point a call's body is handed the current buffer of each of its seven windows: the row blocks of the
  features, of the neighbour means and of the embedding, the two weight matrices, the bias row, and the output's row
  block. It reads the six inputs and stores the layer's value on them over the whole output block. For each call:
  what the body finds in an input's buffer (the window's block at the point, fetched there or carried over from an
  earlier point), the body's triple on whole buffers, and the obligation the pipeline's frame rule asks of the body
  at every point. The three calls run the same body on different arrays, so the three parts differ in the call's
  index only.
-/
import proofs.«155506_j4097398800995_1_alg».proof.Proof.KData
import Idealize.ShloMosaic.Lib.Pipeline.FrameBody
import Idealize.ShloMosaic.Lib.Tactic

-- membership of an index in the whole 2000x128 rectangle is decided by structural recursion along the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The one store of a body is of the whole 2000x128 output buffer: the rectangle it writes covers every index. -/
theorem cover_rA (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

section Calls
-- the buffers' contents when a call is entered: every statement below is at any such contents
variable (V : (c : Dev nD) → (b : Ref sig .tc) → Buf (Elt F) ((c : Thread nD τ).loc b))

/-! # Layer 0: the first call -/

/-! ## What the body finds in each input's buffer -/

/-- An input window's current buffer holds the window's block of the point, whether the pipeline fetched it at this
    point or not: an input that is not fetched at a point has the block index it had at the point before, and the
    body leaves every input's buffer as it found it. The row blocks move with the point and are fetched at every
    one; the weight matrices and the bias row are one block each, fetched at the first point only and still there
    at every later one. Stated for any proof data over the call's entry contents that keeps the window's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 1000000 in
/-- The body on whole buffers: it reads the six inputs, reads the output's buffer without using what it read, and
    stores the layer's value over the whole output buffer. So from the inputs' buffers at `x0` … `x5` and the
    output's at anything it runs to the inputs' as they were and the output's at the one store's value: a buffer
    all of which is overwritten holds what was written, whatever it held and whatever was read from it before. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 x1 x2 : Vec F S2000x128 .f32) (x3 x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_rA _)

/-! ## The proof data's inputs at a point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`: the invariant, nothing owed, and every window's current buffer — an
    input's at its block, the output's at whatever the earlier points left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the same, every input's buffer unchanged and the output's at the layer's value on the point's blocks. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies to them; the invariant
    and what is owed do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point: the seven windows' buffers written out one by one. -/
theorem body_obligation0 (c : Dev nD) : BodyObligation (dat0 (F := F) V c) (defs₀ (F := F)) Variants.none () Set.univ := fun t => by
  rw [bigSep_W0, bigSep_W0]
  exact sound_body0 V c t

/-! # Layer 1: the second call -/

/-! ## What the body finds in each input's buffer -/

/-- An input window's current buffer holds the window's block of the point, whether the pipeline fetched it at this
    point or not: an input that is not fetched at a point has the block index it had at the point before, and the
    body leaves every input's buffer as it found it. The row blocks move with the point and are fetched at every
    one; the weight matrices and the bias row are one block each, fetched at the first point only and still there
    at every later one. Stated for any proof data over the call's entry contents that keeps the window's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The body on whole buffers: it reads the six inputs, reads the output's buffer without using what it read, and
    stores the layer's value over the whole output buffer. So from the inputs' buffers at `x0` … `x5` and the
    output's at anything it runs to the inputs' as they were and the output's at the one store's value: a buffer
    all of which is overwritten holds what was written, whatever it held and whatever was read from it before. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 x1 x2 : Vec F S2000x128 .f32) (x3 x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_rA _)

/-! ## The proof data's inputs at a point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`: the invariant, nothing owed, and every window's current buffer — an
    input's at its block, the output's at whatever the earlier points left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns: the same, every input's buffer unchanged and the output's at the layer's value on the point's blocks. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies to them; the invariant
    and what is owed do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point: the seven windows' buffers written out one by one. -/
theorem body_obligation1 (c : Dev nD) : BodyObligation (dat1 (F := F) V c) (defs₀ (F := F)) Variants.none () Set.univ := fun t => by
  rw [bigSep_W1, bigSep_W1]
  exact sound_body1 V c t

/-! # Layer 2: the third call -/

/-! ## What the body finds in each input's buffer -/

/-- An input window's current buffer holds the window's block of the point, whether the pipeline fetched it at this
    point or not: an input that is not fetched at a point has the block index it had at the point before, and the
    body leaves every input's buffer as it found it. The row blocks move with the point and are fetched at every
    one; the weight matrices and the bias row are one block each, fetched at the first point only and still there
    at every later one. Stated for any proof data over the call's entry contents that keeps the window's block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

set_option maxHeartbeats 1000000 in
/-- The body on whole buffers: it reads the six inputs, reads the output's buffer without using what it read, and
    stores the layer's value over the whole output buffer. So from the inputs' buffers at `x0` … `x5` and the
    output's at anything it runs to the inputs' as they were and the output's at the one store's value: a buffer
    all of which is overwritten holds what was written, whatever it held and whatever was read from it before. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 x1 x2 : Vec F S2000x128 .f32) (x3 x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_rA _)

/-! ## The proof data's inputs at a point -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`: the invariant, nothing owed, and every window's current buffer — an
    input's at its block, the output's at whatever the earlier points left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it returns: the same, every input's buffer unchanged and the output's at the layer's value on the point's blocks. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies to them; the invariant
    and what is owed do not depend on the point and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point: the seven windows' buffers written out one by one. -/
theorem body_obligation2 (c : Dev nD) : BodyObligation (dat2 (F := F) V c) (defs₀ (F := F)) Variants.none () Set.univ := fun t => by
  rw [bigSep_W2, bigSep_W2]
  exact sound_body2 V c t

end Calls

end Cert.Kernel.Hand

end
-- ==== Proof.KRegions.lean ====
/-
  The run of the three-layer network from the launch to the return: three stretches of host operations, each followed
  by one pipelined call, six segments in all.

  Between two segments a core holds every buffer that outlives a call, whole, at contents named in advance: the launch
  memory, then what a stretch of host operations computes from it, then the same with the call's result array replaced
  by what the call's write-backs leave. A call takes its windows' arrays out of that state and puts them back at the end.

  For the second and the third call the seven windows read seven distinct arrays, each held whole. In the first call
  the features and the embedding are one array read through two windows: its ownership enters the call in two halves,
  one per window, and the two halves are joined again when the call returns. Both windows are inputs, so both halves
  come back at the contents they went in with.

  Everything here is stated from the three calls' body obligations, taken as hypotheses.
-/
import proofs.«155506_j4097398800995_1_alg».proof.Proof.KData
import proofs.«155506_j4097398800995_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The first call's arrays: one array behind two windows -/

/-- The windows of the first call other than the two that read the shared array. -/
abbrev rest0 : Finset (Fin 7) := (Finset.univ.erase (2 : Fin 7)).erase 0

/-- The distinct buffers behind the first call's windows, one by one: the seven windows name six buffers, window 2's
    being window 0's, and off window 2 the naming is one to one. So the buffers are window 0's and those of the windows
    other than 0 and 2. -/
theorem arrBufs0_eq (c : Dev nD) (V : (b : Ref sig .tc) → Buf (Elt F) ((c : Thread nD τ).loc b)) :
    (Pipeline.arrBufs spec0 c V : sProp 𝕄)
      = iprop((((c : Thread nD τ).loc (Pipeline.arrRef spec0 0)) ↦{fullShare} V (Pipeline.arrRef spec0 0))
          ∗ bigSep rest0 fun w => (((c : Thread nD τ).loc (Pipeline.arrRef spec0 w)) ↦{fullShare} V (Pipeline.arrRef spec0 w) : sProp 𝕄)) := by
  classical
  have himg : Finset.univ.image (Pipeline.arrRef spec0) = (Finset.univ.erase (2 : Fin 7)).image (Pipeline.arrRef spec0) := by decide
  have hinj : ∀ x ∈ (Finset.univ.erase (2 : Fin 7)), ∀ y ∈ (Finset.univ.erase (2 : Fin 7)), Pipeline.arrRef spec0 x = Pipeline.arrRef spec0 y → x = y := by decide
  unfold Pipeline.arrBufs
  rw [himg]
  unfold bigSep
  rw [Finset.fold_image hinj]
  exact bigSep_erase (i := (0 : Fin 7)) (s := Finset.univ.erase (2 : Fin 7)) (by decide)

/-- The first call's windowed arrays, windows 2 and 0 taken out of the seven. -/
theorem arrays0_eq {c : Dev nD} (dat : Dat τ (Elt F) Unit ℕ (UR sig nD τ) ℕ cfg0 c)
    (Fn : (w : Fin cfg0.W) → Buf (Elt F) ((cfg0.win w).arr.view.loc (c : Thread nD τ))) :
    (dat.arrays Fn : sProp 𝕄)
      = iprop(((cfg0.win 2).arr.view.loc (c : Thread nD τ) ↦[(cfg0.win 2).arr.view.set]{dat.share 2} Fn 2)
          ∗ ((cfg0.win 0).arr.view.loc (c : Thread nD τ) ↦[(cfg0.win 0).arr.view.set]{dat.share 0} Fn 0)
          ∗ bigSep rest0 fun w : Fin cfg0.W => ((cfg0.win w).arr.view.loc (c : Thread nD τ) ↦[(cfg0.win w).arr.view.set]{dat.share w} Fn w : sProp 𝕄)) := by
  unfold Dat.arrays
  rw [bigSep_univ_split (2 : Fin 7), bigSep_erase (i := (0 : Fin 7)) (s := Finset.univ.erase (2 : Fin 7)) (by decide)]
  rfl

/-- Off windows 0 and 2 a window's array is a whole buffer of its own held at the full share: the buffer at the
    contents `V` names is the window's array at `Fn`, the two agreeing. -/
theorem rest0_congr {c : Dev nD} (dat : Dat τ (Elt F) Unit ℕ (UR sig nD τ) ℕ cfg0 c)
    (hs : ∀ w ∈ rest0, dat.share w = fullShare)
    (V : (b : Ref sig .tc) → Buf (Elt F) ((c : Thread nD τ).loc b))
    (Fn : (w : Fin cfg0.W) → Buf (Elt F) ((cfg0.win w).arr.view.loc (c : Thread nD τ))) (hF : ∀ w, Fn w = V (Pipeline.arrRef spec0 w)) :
    (bigSep rest0 fun w => (((c : Thread nD τ).loc (Pipeline.arrRef spec0 w)) ↦{fullShare} V (Pipeline.arrRef spec0 w) : sProp 𝕄))
      = bigSep rest0 fun w : Fin cfg0.W => ((cfg0.win w).arr.view.loc (c : Thread nD τ) ↦[(cfg0.win w).arr.view.set]{dat.share w} Fn w : sProp 𝕄) :=
  bigSep_congr fun w hw => by rw [(arr_whole0 w).set_eq_univ, hs w hw, hF w]

/-- ENTERING the first call: the six buffers whole are the seven windows' arrays, the shared buffer's full share
    cut into window 0's part `qa` and window 2's part `qb`. -/
theorem arrays0_of_arrBufs {c : Dev nD} (dat : Dat τ (Elt F) Unit ℕ (UR sig nD τ) ℕ cfg0 c)
    {qa qb : PosShare TreeShare} (hq : fullShare ∈ qa ·? qb)
    (hs0 : dat.share 0 = qa) (hs2 : dat.share 2 = qb) (hs : ∀ w ∈ rest0, dat.share w = fullShare)
    (V : (b : Ref sig .tc) → Buf (Elt F) ((c : Thread nD τ).loc b))
    (Fn : (w : Fin cfg0.W) → Buf (Elt F) ((cfg0.win w).arr.view.loc (c : Thread nD τ))) (hF : ∀ w, Fn w = V (Pipeline.arrRef spec0 w)) :
    (Pipeline.arrBufs spec0 c V : sProp 𝕄) ⊢ dat.arrays Fn := by
  rw [arrBufs0_eq, arrays0_eq, rest0_congr dat hs V Fn hF, (arr_whole0 0).set_eq_univ, hs0, hs2, hF 0, hF 2]
  refine (sep_mono ((pointsTo_share hq).1.trans sep_comm.1) .rfl).trans ?_
  exact sep_assoc.1

/-- LEAVING the first call: the two parts of the shared buffer, at the same contents, are the buffer whole again. -/
theorem arrBufs0_of_arrays {c : Dev nD} (dat : Dat τ (Elt F) Unit ℕ (UR sig nD τ) ℕ cfg0 c)
    {qa qb : PosShare TreeShare} (hq : fullShare ∈ qa ·? qb)
    (hs0 : dat.share 0 = qa) (hs2 : dat.share 2 = qb) (hs : ∀ w ∈ rest0, dat.share w = fullShare)
    (V : (b : Ref sig .tc) → Buf (Elt F) ((c : Thread nD τ).loc b))
    (Fn : (w : Fin cfg0.W) → Buf (Elt F) ((cfg0.win w).arr.view.loc (c : Thread nD τ))) (hF : ∀ w, Fn w = V (Pipeline.arrRef spec0 w)) :
    (dat.arrays Fn : sProp 𝕄) ⊢ Pipeline.arrBufs spec0 c V := by
  rw [arrBufs0_eq, arrays0_eq, rest0_congr dat hs V Fn hF, (arr_whole0 0).set_eq_univ, hs0, hs2, hF 0, hF 2]
  refine sep_assoc.2.trans ?_
  exact sep_mono (sep_comm.1.trans (pointsTo_share hq).2) .rfl

/-- What the first call's proof data hold of each array: half of the shared one through window 0, the other half
    through window 2, every other array whole. -/
theorem share0_0 (V : (c : Dev nD) → (b : Ref sig .tc) → Buf (Elt F) ((c : Thread nD τ).loc b)) (c : Dev nD) :
    (dat0 V c).share 0 = qL := rfl
theorem share0_2 (V : (c : Dev nD) → (b : Ref sig .tc) → Buf (Elt F) ((c : Thread nD τ).loc b)) (c : Dev nD) :
    (dat0 V c).share 2 = qR := rfl
theorem share0_rest (V : (c : Dev nD) → (b : Ref sig .tc) → Buf (Elt F) ((c : Thread nD τ).loc b)) (c : Dev nD) :
    ∀ w ∈ rest0, (dat0 V c).share w = fullShare
  | 0, h => absurd h (by decide)
  | 1, _ => rfl
  | 2, h => absurd h (by decide)
  | 3, _ => rfl
  | 4, _ => rfl
  | 5, _ => rfl
  | 6, _ => rfl
  | ⟨_ + 7, h⟩, _ => absurd h (Nat.not_lt.2 (Nat.le_add_left _ _))

/-! ## The buffers' contents through the run -/

variable (m : (ℓ : Loc nD τ sig) → Buf (Elt F) ℓ)

/-- Call 0 changes its result array alone: at it the contents after the call are what the write-backs leave, -/
theorem W2_self (c : Dev nD) : W2 m c (Proc.devRef .tc main_v35) = (dat0 (V1 m) c).arrAt 6 cfg0.N := by
  unfold W2; exact Function.update_self _ _ _
/-- and at every other buffer they are the contents the call was entered with. -/
theorem W2_of_ne (c : Dev nD) (b : Ref sig .tc) (h : b ≠ main_v35) : W2 m c (Proc.devRef .tc b) = W1 m c (Proc.devRef .tc b) := by
  unfold W2; exact Function.update_of_ne (StableHlo.devRef_ne_of_ne h) _ _
/-- The same contents read at the TensorCore's references. -/
abbrev V2 : (c : Dev nD) → (b : Ref sig .tc) → Buf (Elt F) ((c : Thread nD τ).loc b) := fun c b => W2 m c b
/-- An input array of call 0 is never written: when the call returns it holds what it held at entry, -/
theorem hF0_in (c : Dev nD) (w : Fin cfg0.W) (hin : (cfg0.win w).isOut = false) (hne : Pipeline.arrRef spec0 w ≠ main_v35) :
    (dat0 (V1 m) c).arrAt w cfg0.N = V2 m c (Pipeline.arrRef spec0 w) := by
  rw [(dat0 (V1 m) c).arrAt_in w hin, A_eq0]
  exact (W2_of_ne m c _ hne).symm
/-- so that each of the call's arrays holds what the pipeline leaves in it, the result array its write-backs. -/
theorem hF0 (c : Dev nD) : ∀ w : Fin cfg0.W, (dat0 (V1 m) c).arrAt w cfg0.N = V2 m c (Pipeline.arrRef spec0 w)
  | 0 => hF0_in m c 0 rfl (by decide)
  | 1 => hF0_in m c 1 rfl (by decide)
  | 2 => hF0_in m c 2 rfl (by decide)
  | 3 => hF0_in m c 3 rfl (by decide)
  | 4 => hF0_in m c 4 rfl (by decide)
  | 5 => hF0_in m c 5 rfl (by decide)
  | 6 => (W2_self m c).symm
  | ⟨_ + 7, h⟩ => absurd h (Nat.not_lt.2 (Nat.le_add_left _ _))
/-- Every buffer that is no array of call 0 holds what it held at entry. -/
theorem hrest0 (c : Dev nD) : ∀ b, b ∉ Finset.univ.image (Pipeline.arrRef spec0) → V2 m c b = V1 m c b :=
  fun b hb => W2_of_ne m c b fun e => hb (Finset.mem_image.mpr ⟨6, Finset.mem_univ _, e.symm⟩)

/-- Call 1 changes its result array alone: at it the contents after the call are what the write-backs leave, -/
theorem W4_self (c : Dev nD) : W4 m c (Proc.devRef .tc main_v56) = (dat1 (V3 m) c).arrAt 6 cfg1.N := by
  unfold W4; exact Function.update_self _ _ _
/-- and at every other buffer they are the contents the call was entered with. -/
theorem W4_of_ne (c : Dev nD) (b : Ref sig .tc) (h : b ≠ main_v56) : W4 m c (Proc.devRef .tc b) = W3 m c (Proc.devRef .tc b) := by
  unfold W4; exact Function.update_of_ne (StableHlo.devRef_ne_of_ne h) _ _
/-- The same contents read at the TensorCore's references. -/
abbrev V4 : (c : Dev nD) → (b : Ref sig .tc) → Buf (Elt F) ((c : Thread nD τ).loc b) := fun c b => W4 m c b
/-- An input array of call 1 is never written: when the call returns it holds what it held at entry, -/
theorem hF1_in (c : Dev nD) (w : Fin cfg1.W) (hin : (cfg1.win w).isOut = false) (hne : Pipeline.arrRef spec1 w ≠ main_v56) :
    (dat1 (V3 m) c).arrAt w cfg1.N = V4 m c (Pipeline.arrRef spec1 w) := by
  rw [(dat1 (V3 m) c).arrAt_in w hin, A_eq1]
  exact (W4_of_ne m c _ hne).symm
/-- so that each of the call's arrays holds what the pipeline leaves in it, the result array its write-backs. -/
theorem hF1 (c : Dev nD) : ∀ w : Fin cfg1.W, (dat1 (V3 m) c).arrAt w cfg1.N = V4 m c (Pipeline.arrRef spec1 w)
  | 0 => hF1_in m c 0 rfl (by decide)
  | 1 => hF1_in m c 1 rfl (by decide)
  | 2 => hF1_in m c 2 rfl (by decide)
  | 3 => hF1_in m c 3 rfl (by decide)
  | 4 => hF1_in m c 4 rfl (by decide)
  | 5 => hF1_in m c 5 rfl (by decide)
  | 6 => (W4_self m c).symm
  | ⟨_ + 7, h⟩ => absurd h (Nat.not_lt.2 (Nat.le_add_left _ _))
/-- Every buffer that is no array of call 1 holds what it held at entry. -/
theorem hrest1 (c : Dev nD) : ∀ b, b ∉ Finset.univ.image (Pipeline.arrRef spec1) → V4 m c b = V3 m c b :=
  fun b hb => W4_of_ne m c b fun e => hb (Finset.mem_image.mpr ⟨6, Finset.mem_univ _, e.symm⟩)

/-- Call 2 changes its result array alone: at it the contents after the call are what the write-backs leave, -/
theorem W6_self (c : Dev nD) : W6 m c (Proc.devRef .tc main_v77) = (dat2 (V5 m) c).arrAt 6 cfg2.N := by
  unfold W6; exact Function.update_self _ _ _
/-- and at every other buffer they are the contents the call was entered with. -/
theorem W6_of_ne (c : Dev nD) (b : Ref sig .tc) (h : b ≠ main_v77) : W6 m c (Proc.devRef .tc b) = W5 m c (Proc.devRef .tc b) := by
  unfold W6; exact Function.update_of_ne (StableHlo.devRef_ne_of_ne h) _ _
/-- The same contents read at the TensorCore's references. -/
abbrev V6 : (c : Dev nD) → (b : Ref sig .tc) → Buf (Elt F) ((c : Thread nD τ).loc b) := fun c b => W6 m c b
/-- An input array of call 2 is never written: when the call returns it holds what it held at entry, -/
theorem hF2_in (c : Dev nD) (w : Fin cfg2.W) (hin : (cfg2.win w).isOut = false) (hne : Pipeline.arrRef spec2 w ≠ main_v77) :
    (dat2 (V5 m) c).arrAt w cfg2.N = V6 m c (Pipeline.arrRef spec2 w) := by
  rw [(dat2 (V5 m) c).arrAt_in w hin, A_eq2]
  exact (W6_of_ne m c _ hne).symm
/-- so that each of the call's arrays holds what the pipeline leaves in it, the result array its write-backs. -/
theorem hF2 (c : Dev nD) : ∀ w : Fin cfg2.W, (dat2 (V5 m) c).arrAt w cfg2.N = V6 m c (Pipeline.arrRef spec2 w)
  | 0 => hF2_in m c 0 rfl (by decide)
  | 1 => hF2_in m c 1 rfl (by decide)
  | 2 => hF2_in m c 2 rfl (by decide)
  | 3 => hF2_in m c 3 rfl (by decide)
  | 4 => hF2_in m c 4 rfl (by decide)
  | 5 => hF2_in m c 5 rfl (by decide)
  | 6 => (W6_self m c).symm
  | ⟨_ + 7, h⟩ => absurd h (Nat.not_lt.2 (Nat.le_add_left _ _))
/-- Every buffer that is no array of call 2 holds what it held at entry. -/
theorem hrest2 (c : Dev nD) : ∀ b, b ∉ Finset.univ.image (Pipeline.arrRef spec2) → V6 m c b = V5 m c b :=
  fun b hb => W6_of_ne m c b fun e => hb (Finset.mem_image.mpr ⟨6, Finset.mem_univ _, e.symm⟩)

/-! ### The arguments end as launched: no host operation writes one, and no call's result array is one -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The first call's entry and exit -/

/-- ENTRY of call 0: a core's outliving buffers at `W1` are the call's arrays at their entry contents and the rest. -/
theorem entry0 (c : Dev nD) : (unscopedBufs c (V1 m c) : sProp 𝕄)
    ⊢ iprop((dat0 (V1 m) c).arrays ((dat0 (V1 m) c).arrAt · 0) ∗ Pipeline.unscopedRest spec0 c (V1 m c)) := by
  rw [Pipeline.unscopedBufs_split₀ cfgs 0 winFacts₀0.arr_unscoped c (V1 m c)]
  exact sep_mono (arrays0_of_arrBufs _ qL_qR (share0_0 _ c) (share0_2 _ c) (share0_rest _ c) (V1 m c) _ fun w => A_eq0 (V1 m) c w) .rfl

/-- EXIT of call 0: its arrays at what the pipeline leaves and the rest as entered are the core's outliving buffers at `W2`. -/
theorem exit0 (c : Dev nD) : iprop((dat0 (V1 m) c).arrays ((dat0 (V1 m) c).arrAt · cfg0.N) ∗ Pipeline.unscopedRest spec0 c (V1 m c))
    ⊢ (unscopedBufs c (V2 m c) : sProp 𝕄) := by
  rw [Pipeline.unscopedBufs_split₀ cfgs 0 winFacts₀0.arr_unscoped c (V2 m c)]
  refine sep_mono (arrBufs0_of_arrays _ qL_qR (share0_0 _ c) (share0_2 _ c) (share0_rest _ c) (V2 m c) _ (hF0 m c)) (Entails.of_eq ?_)
  unfold Pipeline.unscopedRest
  exact bigSep_congr fun b hb => by rw [hrest0 m c b (Finset.mem_sdiff.mp hb).2]

/-! ## The thread state between segments -/

abbrev 𝒱₀ : Variants := Variants.none
/-- No core owes another anything: no level is assigned. -/
abbrev L : GSem nD τ sig → Finset Unit := fun _ => ∅
abbrev lv : GSem nD τ sig → Unit → ℕ := fun _ _ => 0
/-- What a core carries beside its buffers through every segment: its generator register at some state, and that it owes nothing. -/
abbrev R (c : Dev nD) : sProp 𝕄 := iprop((∃ r, prngReg c r) ∗ ∃ W, owes (c : Thread nD τ) (0 : CellTallies nD τ sig Unit) W)
/-- A stretch of host operations as a segment over the outliving buffers, from the contents `W`: it leaves them at
    what the operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A TensorCore buffer that outlives a call is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart: every outliving buffer at `W6`, the generator register at some state. -/
abbrev Tₙ (c : Dev nD) : sProp 𝕄 := iprop(StableHlo.held (c : Thread nD τ) (Pipeline.ucRefs τ sig) (W6 m c) ∗ ∃ r, prngReg c r)

/-! ## The calls as segments -/

section Run

variable (hb0 : ∀ c, BodyObligation (dat0 (F := F) (V1 m) c) (defs₀ (F := F)) Variants.none () Set.univ)
  (hb1 : ∀ c, BodyObligation (dat1 (F := F) (V3 m) c) (defs₀ (F := F)) Variants.none () Set.univ)
  (hb2 : ∀ c, BodyObligation (dat2 (F := F) (V5 m) c) (defs₀ (F := F)) Variants.none () Set.univ)

set_option backward.isDefEq.respectTransparency.types false in
/-- CALL 0 as a segment: entered with every outliving buffer at `W1`, left with them at `W2`. Its arrays are taken out
    of those buffers — the shared array's ownership cut in two, a half for each of the two windows on it — and put back
    when it returns, the two halves joined; the generator register passes through the call's invariant; nothing is
    owed to another core; the call has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄)
        ⊢ iprop((pdats m 0 c).arrays ((pdats m 0 c).arrAt · 0) ∗ Pipeline.unscopedRest spec0 c (V1 m c)) := entry0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1 m c))
        ⊢ (unscopedBufs c (V2 m c) : sProp 𝕄) := exit0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 as a segment: entered with every outliving buffer at `W3`, left with them at `W4`. Its seven arrays
    are seven distinct buffers, taken out whole and put back whole; the generator register passes through the call's
    invariant; nothing is owed to another core; the call has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 as a segment: entered with every outliving buffer at `W5`, left with them at `W6`. Its seven arrays
    are seven distinct buffers, taken out whole and put back whole; the generator register passes through the call's
    invariant; nothing is owed to another core; the call has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb2 c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order. -/
abbrev segs : List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1),
    .host (hseg hostOps2 hostOps2_sub hostOps2_fresh (W4 m)),
    .region (reg2 m hb2) ]

set_option backward.isDefEq.respectTransparency.types false in
include hb0 hb1 hb2 in
/-- THE RUN. From any launch memory with every counter at zero, every weakly fair execution of the program on the
    TensorCores terminates, and in every final state each outliving buffer of each core holds `W6`: the launch contents
    taken through the three stretches of host operations and the three calls. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W6 m c b) :=
  Pipeline.θ_run_regions_kit (pcfgs (F := F)) adm (pdats m) () cellOf_inj emb₁ defs₀ 𝒱₀ L lv m ρ main (segs m hb0 hb1 hb2)
    (fun c Q => by
      rewrite [main_chain c, Pipeline.Seg.run_eq_chain,
        show (segs m hb0 hb1 hb2).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Run

end Cert.Kernel.Hand

end
-- ==== Proof.KFrame.lean ====
/-
  The two statements about the whole run of the three-layer network that the certificate uses: the run terminates with
  the third call's result array holding the contents the run's fold names for it and every argument array as launched;
  and, forgetting the result, the run terminates with every argument array as launched.

  Both are read off the run of the six segments: there every buffer that outlives a call ends at the fold's last
  contents, the result array and the arguments are such buffers, and the fold's last contents at an argument are the
  launch contents. The three calls' body obligations are the ones proved for the three calls' proof data.
-/
import proofs.«155506_j4097398800995_1_alg».proof.Proof.KBody
import proofs.«155506_j4097398800995_1_alg».proof.Proof.KRegions

noncomputable section

namespace Cert.Kernel.Hand

open Idealize.ShloMosaic Idealize.ShloMosaic.TcCoe
open Idealize.SL Idealize.SL.Sem
open Cert.Kernel Cert.Kernel.Gen

variable {F : FTy → Type} [FloatOps F]

/-- The run with the three calls' body obligations filled in: every outliving buffer ends at the fold's last contents. -/
theorem run_buffers (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W6 m c b) :=
  run_all m (fun c => body_obligation0 (V1 m) c) (fun c => body_obligation1 (V3 m) c) (fun c => body_obligation2 (V5 m) c) ρ

/-- The run ends with the result array at the fold's last contents and every argument array as launched. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v77) = W6 m c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v77 (by decide)),
      (h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c)⟩)
    (run_buffers m ρ)

/-- The run ends with every argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_value m ρ)

end Cert.Kernel.Hand

end
-- ==== Proof.KIData.lean ====
/-
  The three layers of the network as three pipelined calls: for each call, the blocks its windows read, the block its
  body stores, and the data the pipeline's frame rule is instantiated with; then the contents of every buffer at each
  boundary between a stretch of host operations and a call, folded from the launch memory.

  Each call walks the 100000 rows in 50 row blocks of 2000. At a point the body reads the row block of the features,
  of the neighbour means and of the embedding, the two whole 128x128 weight matrices and the bias row, and stores the
  layer's value on that row block. In the first call the features and the embedding are one and the same array, read by
  two windows: the array's ownership is dealt to the two windows in two halves.
-/
import proofs.«155506_j4097398800995_1_alg».proof.Proof.Gen.KernelIdeal.Launch
import proofs.«155506_j4097398800995_1_alg».proof.Proof.Gen.KernelIdeal.Skeleton
import proofs.«155506_j4097398800995_1_alg».proof.Proof.Gen.KernelIdeal.Points
import proofs.«155506_j4097398800995_1_alg».proof.Proof.Gen.KernelIdeal.Regions
import Idealize.ShloMosaic.Lib.Pipeline.FrameBody
import Idealize.ShloMosaic.Lib.Pipeline.Frame
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole row block, the whole weight matrix and the whole bias row as rectangles: every access of the body is one of them. -/
abbrev rA : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The two halves of full ownership: what each of two windows reading one array holds of it. -/
def qL : PosShare TreeShare := PosShare.left fullShare
def qR : PosShare TreeShare := PosShare.right fullShare
/-- The two halves make the whole. -/
theorem qL_qR : fullShare ∈ PCS.op qL qR := PosShare.mem_left_op_right fullShare

section Calls
variable (V : (c : Dev nD) → (b : Ref sig .tc) → Buf (Elt F) ((c : Thread nD τ).loc b))

/-! ## Layer 0: the call's blocks, what its body stores, its proof data -/

/-- Window `w`'s block at grid point `t` of call 0, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block of call 0 after its body: the one whole-block store of the layer's value on the row block of the
    features `x0`, of the neighbour means `x1` and of the embedding `x2`, the two weight matrices `x3`, `x4` and the bias row `x5`. -/
def out0_6 (x0 x1 x2 : Vec F S2000x128 .f32) (x3 x4 : Vec F S128x128 .f32) (x5 : Vec F S1x128 .f32) : Vec F S2000x128 .f32 :=
  View.canon [⟨rA, k0_pay1 (View.ld x0 rA) (View.ld x1 rA) (View.ld x3 rW) (View.ld x4 rW) (View.ld x5 rB) (View.ld x2 rA)⟩]

/-- The proof data of call 0: every input block stays as fetched, the output block is the layer's value on the
    input blocks of the same point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := if w = 0 then qL else if w = 2 then qR else fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-! ## Layer 1: the call's blocks, what its body stores, its proof data -/

/-- Window `w`'s block at grid point `t` of call 1, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block of call 1 after its body: the one whole-block store of the layer's value on the row block of the
    features `x0`, of the neighbour means `x1` and of the embedding `x2`, the two weight matrices `x3`, `x4` and the bias row `x5`. -/
def out1_6 (x0 x1 x2 : Vec F S2000x128 .f32) (x3 x4 : Vec F S128x128 .f32) (x5 : Vec F S1x128 .f32) : Vec F S2000x128 .f32 :=
  View.canon [⟨rA, k1_pay1 (View.ld x0 rA) (View.ld x1 rA) (View.ld x3 rW) (View.ld x4 rW) (View.ld x5 rB) (View.ld x2 rA)⟩]

/-- The proof data of call 1: every input block stays as fetched, the output block is the layer's value on the
    input blocks of the same point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-! ## Layer 2: the call's blocks, what its body stores, its proof data -/

/-- Window `w`'s block at grid point `t` of call 2, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block of call 2 after its body: the one whole-block store of the layer's value on the row block of the
    features `x0`, of the neighbour means `x1` and of the embedding `x2`, the two weight matrices `x3`, `x4` and the bias row `x5`. -/
def out2_6 (x0 x1 x2 : Vec F S2000x128 .f32) (x3 x4 : Vec F S128x128 .f32) (x5 : Vec F S1x128 .f32) : Vec F S2000x128 .f32 :=
  View.canon [⟨rA, k2_pay1 (View.ld x0 rA) (View.ld x1 rA) (View.ld x3 rW) (View.ld x4 rW) (View.ld x5 rB) (View.ld x2 rA)⟩]

/-- The proof data of call 2: every input block stays as fetched, the output block is the layer's value on the
    input blocks of the same point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

end Calls

/-! ## The buffers' contents at each boundary -/

variable (m : (ℓ : Loc nD τ sig) → Buf (Elt F) ℓ)

/-- At launch. -/
def W0 (c : Dev nD) : Valuation τ sig (Elt F) := fun b => m (c, b)
/-- After the host operations before the first call. -/
def W1 (c : Dev nD) : Valuation τ sig (Elt F) := StableHlo.after hostOps0 (W0 m c)
abbrev V1 : (c : Dev nD) → (b : Ref sig .tc) → Buf (Elt F) ((c : Thread nD τ).loc b) := fun c b => W1 m c b
/-- After the first call: its result array holds what the call's write-backs leave. -/
def W2 (c : Dev nD) : Valuation τ sig (Elt F) := Function.update (W1 m c) main_v35 ((dat0 (V1 m) c).arrAt 6 cfg0.N)
def W3 (c : Dev nD) : Valuation τ sig (Elt F) := StableHlo.after hostOps1 (W2 m c)
abbrev V3 : (c : Dev nD) → (b : Ref sig .tc) → Buf (Elt F) ((c : Thread nD τ).loc b) := fun c b => W3 m c b
def W4 (c : Dev nD) : Valuation τ sig (Elt F) := Function.update (W3 m c) main_v56 ((dat1 (V3 m) c).arrAt 6 cfg1.N)
def W5 (c : Dev nD) : Valuation τ sig (Elt F) := StableHlo.after hostOps2 (W4 m c)
abbrev V5 : (c : Dev nD) → (b : Ref sig .tc) → Buf (Elt F) ((c : Thread nD τ).loc b) := fun c b => W5 m c b
def W6 (c : Dev nD) : Valuation τ sig (Elt F) := Function.update (W5 m c) main_v77 ((dat2 (V5 m) c).arrAt 6 cfg2.N)

/-- The three calls' proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

end Cert.KernelIdeal.Hand

end
-- ==== Proof.KIBody.lean ====
/-
  The bodies of the three pipelined calls, one per layer of the network.

  At a grid point a call's body is handed the current buffer of each of its seven windows: the row blocks of the
  features, of the neighbour means and of the embedding, the two weight matrices, the bias row, and the output's row
  block. It reads the six inputs and stores the layer's value on them over the whole output block. For each call:
  what the body finds in an input's buffer (the window's block at the point, fetched there or carried over from an
  earlier point), the body's triple on whole buffers, and the obligation the pipeline's frame rule asks of the body
  at every point. The three calls run the same body on different arrays, so the three parts differ in the call's
  index only.
-/
import proofs.«155506_j4097398800995_1_alg».proof.Proof.KIData
import Idealize.ShloMosaic.Lib.Pipeline.FrameBody
import Idealize.ShloMosaic.Lib.Tactic

-- membership of an index in the whole 2000x128 rectangle is decided by structural recursion along the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The one store of a body is of the whole 2000x128 output buffer: the rectangle it writes covers every index. -/
theorem cover_rA (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

section Calls
-- the buffers' contents when a call is entered: every statement below is at any such contents
variable (V : (c : Dev nD) → (b : Ref sig .tc) → Buf (Elt F) ((c : Thread nD τ).loc b))

/-! # Layer 0: the first call -/

/-! ## What the body finds in each input's buffer -/

/-- An input window's current buffer holds the window's block of the point, whether the pipeline fetched it at this
    point or not: an input that is not fetched at a point has the block index it had at the point before, and the
    body leaves every input's buffer as it found it. The row blocks move with the point and are fetched at every
    one; the weight matrices and the bias row are one block each, fetched at the first point only and still there
    at every later one. Stated for any proof data over the call's entry contents that keeps the window's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 1000000 in
/-- The body on whole buffers: it reads the six inputs, reads the output's buffer without using what it read, and
    stores the layer's value over the whole output buffer. So from the inputs' buffers at `x0` … `x5` and the
    output's at anything it runs to the inputs' as they were and the output's at the one store's value: a buffer
    all of which is overwritten holds what was written, whatever it held and whatever was read from it before. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 x1 x2 : Vec F S2000x128 .f32) (x3 x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_rA _)

/-! ## The proof data's inputs at a point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`: the invariant, nothing owed, and every window's current buffer — an
    input's at its block, the output's at whatever the earlier points left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the same, every input's buffer unchanged and the output's at the layer's value on the point's blocks. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies to them; the invariant
    and what is owed do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point: the seven windows' buffers written out one by one. -/
theorem body_obligation0 (c : Dev nD) : BodyObligation (dat0 (F := F) V c) (defs₀ (F := F)) Variants.none () Set.univ := fun t => by
  rw [bigSep_W0, bigSep_W0]
  exact sound_body0 V c t

/-! # Layer 1: the second call -/

/-! ## What the body finds in each input's buffer -/

/-- An input window's current buffer holds the window's block of the point, whether the pipeline fetched it at this
    point or not: an input that is not fetched at a point has the block index it had at the point before, and the
    body leaves every input's buffer as it found it. The row blocks move with the point and are fetched at every
    one; the weight matrices and the bias row are one block each, fetched at the first point only and still there
    at every later one. Stated for any proof data over the call's entry contents that keeps the window's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The body on whole buffers: it reads the six inputs, reads the output's buffer without using what it read, and
    stores the layer's value over the whole output buffer. So from the inputs' buffers at `x0` … `x5` and the
    output's at anything it runs to the inputs' as they were and the output's at the one store's value: a buffer
    all of which is overwritten holds what was written, whatever it held and whatever was read from it before. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 x1 x2 : Vec F S2000x128 .f32) (x3 x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_rA _)

/-! ## The proof data's inputs at a point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`: the invariant, nothing owed, and every window's current buffer — an
    input's at its block, the output's at whatever the earlier points left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns: the same, every input's buffer unchanged and the output's at the layer's value on the point's blocks. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies to them; the invariant
    and what is owed do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point: the seven windows' buffers written out one by one. -/
theorem body_obligation1 (c : Dev nD) : BodyObligation (dat1 (F := F) V c) (defs₀ (F := F)) Variants.none () Set.univ := fun t => by
  rw [bigSep_W1, bigSep_W1]
  exact sound_body1 V c t

/-! # Layer 2: the third call -/

/-! ## What the body finds in each input's buffer -/

/-- An input window's current buffer holds the window's block of the point, whether the pipeline fetched it at this
    point or not: an input that is not fetched at a point has the block index it had at the point before, and the
    body leaves every input's buffer as it found it. The row blocks move with the point and are fetched at every
    one; the weight matrices and the bias row are one block each, fetched at the first point only and still there
    at every later one. Stated for any proof data over the call's entry contents that keeps the window's block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

set_option maxHeartbeats 1000000 in
/-- The body on whole buffers: it reads the six inputs, reads the output's buffer without using what it read, and
    stores the layer's value over the whole output buffer. So from the inputs' buffers at `x0` … `x5` and the
    output's at anything it runs to the inputs' as they were and the output's at the one store's value: a buffer
    all of which is overwritten holds what was written, whatever it held and whatever was read from it before. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 x1 x2 : Vec F S2000x128 .f32) (x3 x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_rA _)

/-! ## The proof data's inputs at a point -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`: the invariant, nothing owed, and every window's current buffer — an
    input's at its block, the output's at whatever the earlier points left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it returns: the same, every input's buffer unchanged and the output's at the layer's value on the point's blocks. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies to them; the invariant
    and what is owed do not depend on the point and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point: the seven windows' buffers written out one by one. -/
theorem body_obligation2 (c : Dev nD) : BodyObligation (dat2 (F := F) V c) (defs₀ (F := F)) Variants.none () Set.univ := fun t => by
  rw [bigSep_W2, bigSep_W2]
  exact sound_body2 V c t

end Calls

end Cert.KernelIdeal.Hand

end
-- ==== Proof.KIRegions.lean ====
/-
  The run of the three-layer network from the launch to the return: three stretches of host operations, each followed
  by one pipelined call, six segments in all.

  Between two segments a core holds every buffer that outlives a call, whole, at contents named in advance: the launch
  memory, then what a stretch of host operations computes from it, then the same with the call's result array replaced
  by what the call's write-backs leave. A call takes its windows' arrays out of that state and puts them back at the end.

  For the second and the third call the seven windows read seven distinct arrays, each held whole. In the first call
  the features and the embedding are one array read through two windows: its ownership enters the call in two halves,
  one per window, and the two halves are joined again when the call returns. Both windows are inputs, so both halves
  come back at the contents they went in with.

  Everything here is stated from the three calls' body obligations, taken as hypotheses.
-/
import proofs.«155506_j4097398800995_1_alg».proof.Proof.KIData
import proofs.«155506_j4097398800995_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The first call's arrays: one array behind two windows -/

/-- The windows of the first call other than the two that read the shared array. -/
abbrev rest0 : Finset (Fin 7) := (Finset.univ.erase (2 : Fin 7)).erase 0

/-- The distinct buffers behind the first call's windows, one by one: the seven windows name six buffers, window 2's
    being window 0's, and off window 2 the naming is one to one. So the buffers are window 0's and those of the windows
    other than 0 and 2. -/
theorem arrBufs0_eq (c : Dev nD) (V : (b : Ref sig .tc) → Buf (Elt F) ((c : Thread nD τ).loc b)) :
    (Pipeline.arrBufs spec0 c V : sProp 𝕄)
      = iprop((((c : Thread nD τ).loc (Pipeline.arrRef spec0 0)) ↦{fullShare} V (Pipeline.arrRef spec0 0))
          ∗ bigSep rest0 fun w => (((c : Thread nD τ).loc (Pipeline.arrRef spec0 w)) ↦{fullShare} V (Pipeline.arrRef spec0 w) : sProp 𝕄)) := by
  classical
  have himg : Finset.univ.image (Pipeline.arrRef spec0) = (Finset.univ.erase (2 : Fin 7)).image (Pipeline.arrRef spec0) := by decide
  have hinj : ∀ x ∈ (Finset.univ.erase (2 : Fin 7)), ∀ y ∈ (Finset.univ.erase (2 : Fin 7)), Pipeline.arrRef spec0 x = Pipeline.arrRef spec0 y → x = y := by decide
  unfold Pipeline.arrBufs
  rw [himg]
  unfold bigSep
  rw [Finset.fold_image hinj]
  exact bigSep_erase (i := (0 : Fin 7)) (s := Finset.univ.erase (2 : Fin 7)) (by decide)

/-- The first call's windowed arrays, windows 2 and 0 taken out of the seven. -/
theorem arrays0_eq {c : Dev nD} (dat : Dat τ (Elt F) Unit ℕ (UR sig nD τ) ℕ cfg0 c)
    (Fn : (w : Fin cfg0.W) → Buf (Elt F) ((cfg0.win w).arr.view.loc (c : Thread nD τ))) :
    (dat.arrays Fn : sProp 𝕄)
      = iprop(((cfg0.win 2).arr.view.loc (c : Thread nD τ) ↦[(cfg0.win 2).arr.view.set]{dat.share 2} Fn 2)
          ∗ ((cfg0.win 0).arr.view.loc (c : Thread nD τ) ↦[(cfg0.win 0).arr.view.set]{dat.share 0} Fn 0)
          ∗ bigSep rest0 fun w : Fin cfg0.W => ((cfg0.win w).arr.view.loc (c : Thread nD τ) ↦[(cfg0.win w).arr.view.set]{dat.share w} Fn w : sProp 𝕄)) := by
  unfold Dat.arrays
  rw [bigSep_univ_split (2 : Fin 7), bigSep_erase (i := (0 : Fin 7)) (s := Finset.univ.erase (2 : Fin 7)) (by decide)]
  rfl

/-- Off windows 0 and 2 a window's array is a whole buffer of its own held at the full share: the buffer at the
    contents `V` names is the window's array at `Fn`, the two agreeing. -/
theorem rest0_congr {c : Dev nD} (dat : Dat τ (Elt F) Unit ℕ (UR sig nD τ) ℕ cfg0 c)
    (hs : ∀ w ∈ rest0, dat.share w = fullShare)
    (V : (b : Ref sig .tc) → Buf (Elt F) ((c : Thread nD τ).loc b))
    (Fn : (w : Fin cfg0.W) → Buf (Elt F) ((cfg0.win w).arr.view.loc (c : Thread nD τ))) (hF : ∀ w, Fn w = V (Pipeline.arrRef spec0 w)) :
    (bigSep rest0 fun w => (((c : Thread nD τ).loc (Pipeline.arrRef spec0 w)) ↦{fullShare} V (Pipeline.arrRef spec0 w) : sProp 𝕄))
      = bigSep rest0 fun w : Fin cfg0.W => ((cfg0.win w).arr.view.loc (c : Thread nD τ) ↦[(cfg0.win w).arr.view.set]{dat.share w} Fn w : sProp 𝕄) :=
  bigSep_congr fun w hw => by rw [(arr_whole0 w).set_eq_univ, hs w hw, hF w]

/-- ENTERING the first call: the six buffers whole are the seven windows' arrays, the shared buffer's full share
    cut into window 0's part `qa` and window 2's part `qb`. -/
theorem arrays0_of_arrBufs {c : Dev nD} (dat : Dat τ (Elt F) Unit ℕ (UR sig nD τ) ℕ cfg0 c)
    {qa qb : PosShare TreeShare} (hq : fullShare ∈ qa ·? qb)
    (hs0 : dat.share 0 = qa) (hs2 : dat.share 2 = qb) (hs : ∀ w ∈ rest0, dat.share w = fullShare)
    (V : (b : Ref sig .tc) → Buf (Elt F) ((c : Thread nD τ).loc b))
    (Fn : (w : Fin cfg0.W) → Buf (Elt F) ((cfg0.win w).arr.view.loc (c : Thread nD τ))) (hF : ∀ w, Fn w = V (Pipeline.arrRef spec0 w)) :
    (Pipeline.arrBufs spec0 c V : sProp 𝕄) ⊢ dat.arrays Fn := by
  rw [arrBufs0_eq, arrays0_eq, rest0_congr dat hs V Fn hF, (arr_whole0 0).set_eq_univ, hs0, hs2, hF 0, hF 2]
  refine (sep_mono ((pointsTo_share hq).1.trans sep_comm.1) .rfl).trans ?_
  exact sep_assoc.1

/-- LEAVING the first call: the two parts of the shared buffer, at the same contents, are the buffer whole again. -/
theorem arrBufs0_of_arrays {c : Dev nD} (dat : Dat τ (Elt F) Unit ℕ (UR sig nD τ) ℕ cfg0 c)
    {qa qb : PosShare TreeShare} (hq : fullShare ∈ qa ·? qb)
    (hs0 : dat.share 0 = qa) (hs2 : dat.share 2 = qb) (hs : ∀ w ∈ rest0, dat.share w = fullShare)
    (V : (b : Ref sig .tc) → Buf (Elt F) ((c : Thread nD τ).loc b))
    (Fn : (w : Fin cfg0.W) → Buf (Elt F) ((cfg0.win w).arr.view.loc (c : Thread nD τ))) (hF : ∀ w, Fn w = V (Pipeline.arrRef spec0 w)) :
    (dat.arrays Fn : sProp 𝕄) ⊢ Pipeline.arrBufs spec0 c V := by
  rw [arrBufs0_eq, arrays0_eq, rest0_congr dat hs V Fn hF, (arr_whole0 0).set_eq_univ, hs0, hs2, hF 0, hF 2]
  refine sep_assoc.2.trans ?_
  exact sep_mono (sep_comm.1.trans (pointsTo_share hq).2) .rfl

/-- What the first call's proof data hold of each array: half of the shared one through window 0, the other half
    through window 2, every other array whole. -/
theorem share0_0 (V : (c : Dev nD) → (b : Ref sig .tc) → Buf (Elt F) ((c : Thread nD τ).loc b)) (c : Dev nD) :
    (dat0 V c).share 0 = qL := rfl
theorem share0_2 (V : (c : Dev nD) → (b : Ref sig .tc) → Buf (Elt F) ((c : Thread nD τ).loc b)) (c : Dev nD) :
    (dat0 V c).share 2 = qR := rfl
theorem share0_rest (V : (c : Dev nD) → (b : Ref sig .tc) → Buf (Elt F) ((c : Thread nD τ).loc b)) (c : Dev nD) :
    ∀ w ∈ rest0, (dat0 V c).share w = fullShare
  | 0, h => absurd h (by decide)
  | 1, _ => rfl
  | 2, h => absurd h (by decide)
  | 3, _ => rfl
  | 4, _ => rfl
  | 5, _ => rfl
  | 6, _ => rfl
  | ⟨_ + 7, h⟩, _ => absurd h (Nat.not_lt.2 (Nat.le_add_left _ _))

/-! ## The buffers' contents through the run -/

variable (m : (ℓ : Loc nD τ sig) → Buf (Elt F) ℓ)

/-- Call 0 changes its result array alone: at it the contents after the call are what the write-backs leave, -/
theorem W2_self (c : Dev nD) : W2 m c (Proc.devRef .tc main_v35) = (dat0 (V1 m) c).arrAt 6 cfg0.N := by
  unfold W2; exact Function.update_self _ _ _
/-- and at every other buffer they are the contents the call was entered with. -/
theorem W2_of_ne (c : Dev nD) (b : Ref sig .tc) (h : b ≠ main_v35) : W2 m c (Proc.devRef .tc b) = W1 m c (Proc.devRef .tc b) := by
  unfold W2; exact Function.update_of_ne (StableHlo.devRef_ne_of_ne h) _ _
/-- The same contents read at the TensorCore's references. -/
abbrev V2 : (c : Dev nD) → (b : Ref sig .tc) → Buf (Elt F) ((c : Thread nD τ).loc b) := fun c b => W2 m c b
/-- An input array of call 0 is never written: when the call returns it holds what it held at entry, -/
theorem hF0_in (c : Dev nD) (w : Fin cfg0.W) (hin : (cfg0.win w).isOut = false) (hne : Pipeline.arrRef spec0 w ≠ main_v35) :
    (dat0 (V1 m) c).arrAt w cfg0.N = V2 m c (Pipeline.arrRef spec0 w) := by
  rw [(dat0 (V1 m) c).arrAt_in w hin, A_eq0]
  exact (W2_of_ne m c _ hne).symm
/-- so that each of the call's arrays holds what the pipeline leaves in it, the result array its write-backs. -/
theorem hF0 (c : Dev nD) : ∀ w : Fin cfg0.W, (dat0 (V1 m) c).arrAt w cfg0.N = V2 m c (Pipeline.arrRef spec0 w)
  | 0 => hF0_in m c 0 rfl (by decide)
  | 1 => hF0_in m c 1 rfl (by decide)
  | 2 => hF0_in m c 2 rfl (by decide)
  | 3 => hF0_in m c 3 rfl (by decide)
  | 4 => hF0_in m c 4 rfl (by decide)
  | 5 => hF0_in m c 5 rfl (by decide)
  | 6 => (W2_self m c).symm
  | ⟨_ + 7, h⟩ => absurd h (Nat.not_lt.2 (Nat.le_add_left _ _))
/-- Every buffer that is no array of call 0 holds what it held at entry. -/
theorem hrest0 (c : Dev nD) : ∀ b, b ∉ Finset.univ.image (Pipeline.arrRef spec0) → V2 m c b = V1 m c b :=
  fun b hb => W2_of_ne m c b fun e => hb (Finset.mem_image.mpr ⟨6, Finset.mem_univ _, e.symm⟩)

/-- Call 1 changes its result array alone: at it the contents after the call are what the write-backs leave, -/
theorem W4_self (c : Dev nD) : W4 m c (Proc.devRef .tc main_v56) = (dat1 (V3 m) c).arrAt 6 cfg1.N := by
  unfold W4; exact Function.update_self _ _ _
/-- and at every other buffer they are the contents the call was entered with. -/
theorem W4_of_ne (c : Dev nD) (b : Ref sig .tc) (h : b ≠ main_v56) : W4 m c (Proc.devRef .tc b) = W3 m c (Proc.devRef .tc b) := by
  unfold W4; exact Function.update_of_ne (StableHlo.devRef_ne_of_ne h) _ _
/-- The same contents read at the TensorCore's references. -/
abbrev V4 : (c : Dev nD) → (b : Ref sig .tc) → Buf (Elt F) ((c : Thread nD τ).loc b) := fun c b => W4 m c b
/-- An input array of call 1 is never written: when the call returns it holds what it held at entry, -/
theorem hF1_in (c : Dev nD) (w : Fin cfg1.W) (hin : (cfg1.win w).isOut = false) (hne : Pipeline.arrRef spec1 w ≠ main_v56) :
    (dat1 (V3 m) c).arrAt w cfg1.N = V4 m c (Pipeline.arrRef spec1 w) := by
  rw [(dat1 (V3 m) c).arrAt_in w hin, A_eq1]
  exact (W4_of_ne m c _ hne).symm
/-- so that each of the call's arrays holds what the pipeline leaves in it, the result array its write-backs. -/
theorem hF1 (c : Dev nD) : ∀ w : Fin cfg1.W, (dat1 (V3 m) c).arrAt w cfg1.N = V4 m c (Pipeline.arrRef spec1 w)
  | 0 => hF1_in m c 0 rfl (by decide)
  | 1 => hF1_in m c 1 rfl (by decide)
  | 2 => hF1_in m c 2 rfl (by decide)
  | 3 => hF1_in m c 3 rfl (by decide)
  | 4 => hF1_in m c 4 rfl (by decide)
  | 5 => hF1_in m c 5 rfl (by decide)
  | 6 => (W4_self m c).symm
  | ⟨_ + 7, h⟩ => absurd h (Nat.not_lt.2 (Nat.le_add_left _ _))
/-- Every buffer that is no array of call 1 holds what it held at entry. -/
theorem hrest1 (c : Dev nD) : ∀ b, b ∉ Finset.univ.image (Pipeline.arrRef spec1) → V4 m c b = V3 m c b :=
  fun b hb => W4_of_ne m c b fun e => hb (Finset.mem_image.mpr ⟨6, Finset.mem_univ _, e.symm⟩)

/-- Call 2 changes its result array alone: at it the contents after the call are what the write-backs leave, -/
theorem W6_self (c : Dev nD) : W6 m c (Proc.devRef .tc main_v77) = (dat2 (V5 m) c).arrAt 6 cfg2.N := by
  unfold W6; exact Function.update_self _ _ _
/-- and at every other buffer they are the contents the call was entered with. -/
theorem W6_of_ne (c : Dev nD) (b : Ref sig .tc) (h : b ≠ main_v77) : W6 m c (Proc.devRef .tc b) = W5 m c (Proc.devRef .tc b) := by
  unfold W6; exact Function.update_of_ne (StableHlo.devRef_ne_of_ne h) _ _
/-- The same contents read at the TensorCore's references. -/
abbrev V6 : (c : Dev nD) → (b : Ref sig .tc) → Buf (Elt F) ((c : Thread nD τ).loc b) := fun c b => W6 m c b
/-- An input array of call 2 is never written: when the call returns it holds what it held at entry, -/
theorem hF2_in (c : Dev nD) (w : Fin cfg2.W) (hin : (cfg2.win w).isOut = false) (hne : Pipeline.arrRef spec2 w ≠ main_v77) :
    (dat2 (V5 m) c).arrAt w cfg2.N = V6 m c (Pipeline.arrRef spec2 w) := by
  rw [(dat2 (V5 m) c).arrAt_in w hin, A_eq2]
  exact (W6_of_ne m c _ hne).symm
/-- so that each of the call's arrays holds what the pipeline leaves in it, the result array its write-backs. -/
theorem hF2 (c : Dev nD) : ∀ w : Fin cfg2.W, (dat2 (V5 m) c).arrAt w cfg2.N = V6 m c (Pipeline.arrRef spec2 w)
  | 0 => hF2_in m c 0 rfl (by decide)
  | 1 => hF2_in m c 1 rfl (by decide)
  | 2 => hF2_in m c 2 rfl (by decide)
  | 3 => hF2_in m c 3 rfl (by decide)
  | 4 => hF2_in m c 4 rfl (by decide)
  | 5 => hF2_in m c 5 rfl (by decide)
  | 6 => (W6_self m c).symm
  | ⟨_ + 7, h⟩ => absurd h (Nat.not_lt.2 (Nat.le_add_left _ _))
/-- Every buffer that is no array of call 2 holds what it held at entry. -/
theorem hrest2 (c : Dev nD) : ∀ b, b ∉ Finset.univ.image (Pipeline.arrRef spec2) → V6 m c b = V5 m c b :=
  fun b hb => W6_of_ne m c b fun e => hb (Finset.mem_image.mpr ⟨6, Finset.mem_univ _, e.symm⟩)

/-! ### The arguments end as launched: no host operation writes one, and no call's result array is one -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The first call's entry and exit -/

/-- ENTRY of call 0: a core's outliving buffers at `W1` are the call's arrays at their entry contents and the rest. -/
theorem entry0 (c : Dev nD) : (unscopedBufs c (V1 m c) : sProp 𝕄)
    ⊢ iprop((dat0 (V1 m) c).arrays ((dat0 (V1 m) c).arrAt · 0) ∗ Pipeline.unscopedRest spec0 c (V1 m c)) := by
  rw [Pipeline.unscopedBufs_split₀ cfgs 0 winFacts₀0.arr_unscoped c (V1 m c)]
  exact sep_mono (arrays0_of_arrBufs _ qL_qR (share0_0 _ c) (share0_2 _ c) (share0_rest _ c) (V1 m c) _ fun w => A_eq0 (V1 m) c w) .rfl

/-- EXIT of call 0: its arrays at what the pipeline leaves and the rest as entered are the core's outliving buffers at `W2`. -/
theorem exit0 (c : Dev nD) : iprop((dat0 (V1 m) c).arrays ((dat0 (V1 m) c).arrAt · cfg0.N) ∗ Pipeline.unscopedRest spec0 c (V1 m c))
    ⊢ (unscopedBufs c (V2 m c) : sProp 𝕄) := by
  rw [Pipeline.unscopedBufs_split₀ cfgs 0 winFacts₀0.arr_unscoped c (V2 m c)]
  refine sep_mono (arrBufs0_of_arrays _ qL_qR (share0_0 _ c) (share0_2 _ c) (share0_rest _ c) (V2 m c) _ (hF0 m c)) (Entails.of_eq ?_)
  unfold Pipeline.unscopedRest
  exact bigSep_congr fun b hb => by rw [hrest0 m c b (Finset.mem_sdiff.mp hb).2]

/-! ## The thread state between segments -/

abbrev 𝒱₀ : Variants := Variants.none
/-- No core owes another anything: no level is assigned. -/
abbrev L : GSem nD τ sig → Finset Unit := fun _ => ∅
abbrev lv : GSem nD τ sig → Unit → ℕ := fun _ _ => 0
/-- What a core carries beside its buffers through every segment: its generator register at some state, and that it owes nothing. -/
abbrev R (c : Dev nD) : sProp 𝕄 := iprop((∃ r, prngReg c r) ∗ ∃ W, owes (c : Thread nD τ) (0 : CellTallies nD τ sig Unit) W)
/-- A stretch of host operations as a segment over the outliving buffers, from the contents `W`: it leaves them at
    what the operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A TensorCore buffer that outlives a call is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart: every outliving buffer at `W6`, the generator register at some state. -/
abbrev Tₙ (c : Dev nD) : sProp 𝕄 := iprop(StableHlo.held (c : Thread nD τ) (Pipeline.ucRefs τ sig) (W6 m c) ∗ ∃ r, prngReg c r)

/-! ## The calls as segments -/

section Run

variable (hb0 : ∀ c, BodyObligation (dat0 (F := F) (V1 m) c) (defs₀ (F := F)) Variants.none () Set.univ)
  (hb1 : ∀ c, BodyObligation (dat1 (F := F) (V3 m) c) (defs₀ (F := F)) Variants.none () Set.univ)
  (hb2 : ∀ c, BodyObligation (dat2 (F := F) (V5 m) c) (defs₀ (F := F)) Variants.none () Set.univ)

set_option backward.isDefEq.respectTransparency.types false in
/-- CALL 0 as a segment: entered with every outliving buffer at `W1`, left with them at `W2`. Its arrays are taken out
    of those buffers — the shared array's ownership cut in two, a half for each of the two windows on it — and put back
    when it returns, the two halves joined; the generator register passes through the call's invariant; nothing is
    owed to another core; the call has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄)
        ⊢ iprop((pdats m 0 c).arrays ((pdats m 0 c).arrAt · 0) ∗ Pipeline.unscopedRest spec0 c (V1 m c)) := entry0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1 m c))
        ⊢ (unscopedBufs c (V2 m c) : sProp 𝕄) := exit0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 as a segment: entered with every outliving buffer at `W3`, left with them at `W4`. Its seven arrays
    are seven distinct buffers, taken out whole and put back whole; the generator register passes through the call's
    invariant; nothing is owed to another core; the call has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 as a segment: entered with every outliving buffer at `W5`, left with them at `W6`. Its seven arrays
    are seven distinct buffers, taken out whole and put back whole; the generator register passes through the call's
    invariant; nothing is owed to another core; the call has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb2 c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order. -/
abbrev segs : List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1),
    .host (hseg hostOps2 hostOps2_sub hostOps2_fresh (W4 m)),
    .region (reg2 m hb2) ]

set_option backward.isDefEq.respectTransparency.types false in
include hb0 hb1 hb2 in
/-- THE RUN. From any launch memory with every counter at zero, every weakly fair execution of the program on the
    TensorCores terminates, and in every final state each outliving buffer of each core holds `W6`: the launch contents
    taken through the three stretches of host operations and the three calls. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W6 m c b) :=
  Pipeline.θ_run_regions_kit (pcfgs (F := F)) adm (pdats m) () cellOf_inj emb₁ defs₀ 𝒱₀ L lv m ρ main (segs m hb0 hb1 hb2)
    (fun c Q => by
      rewrite [main_chain c, Pipeline.Seg.run_eq_chain,
        show (segs m hb0 hb1 hb2).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Run

end Cert.KernelIdeal.Hand

end
-- ==== Proof.KIFrame.lean ====
/-
  The two statements about the whole run of the three-layer network that the certificate uses: the run terminates with
  the third call's result array holding the contents the run's fold names for it and every argument array as launched;
  and, forgetting the result, the run terminates with every argument array as launched.

  Both are read off the run of the six segments: there every buffer that outlives a call ends at the fold's last
  contents, the result array and the arguments are such buffers, and the fold's last contents at an argument are the
  launch contents. The three calls' body obligations are the ones proved for the three calls' proof data.
-/
import proofs.«155506_j4097398800995_1_alg».proof.Proof.KIBody
import proofs.«155506_j4097398800995_1_alg».proof.Proof.KIRegions

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- The run with the three calls' body obligations filled in: every outliving buffer ends at the fold's last contents. -/
theorem run_buffers (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W6 m c b) :=
  run_all m (fun c => body_obligation0 (V1 m) c) (fun c => body_obligation1 (V3 m) c) (fun c => body_obligation2 (V5 m) c) ρ

/-- The run ends with the result array at the fold's last contents and every argument array as launched. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v77) = W6 m c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v77 (by decide)),
      (h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c)⟩)
    (run_buffers m ρ)

/-- The run ends with every argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_value m ρ)

end Cert.KernelIdeal.Hand

end
-- ==== Proof.Layer.lean ====
/-
  One layer of the network on one node, over the extended reals.

  A node carries a row of 128 features `h`, the mean `n` of its in-neighbours' rows and its embedding row `e`. The layer
  first forms the rectified row `a q = max (∑ k, h k · Ws (k, q) + ∑ k, n k · Wn (k, q) + b q) 0`, then divides it by its
  Euclidean length — floored at a small positive constant, so that an all-zero row stays zero — and adds the embedding back:
  `a q / max (sqrt (∑ j, a j · a j)) floor + e q`.
  Entry (r, q) of the layer's output only looks at row r of the three matrices: a kernel that walks over row blocks and a
  whole-matrix program therefore compute the same function, row by row.
-/
import Idealize.ShloMosaic.PureOps.Ideal.Laws
import Idealize.ShloMosaic.Lib.ValueIdx

noncomputable section

namespace Cert.SageLayer

open Idealize.ShloMosaic Idealize.ShloMosaic.ValueIdx

/-- The floor of a row's length (the binary value of the single-precision constant both programs spell). -/
def lengthFloor : EReal := Ideal.ofBits .f32 0x2B8CBCCC#32

/-- The rectified row at column `q`. -/
def act (h n : Fin 128 → EReal) (Ws Wn : (⟨2, ![128, 128]⟩ : Shape).Idx → EReal) (b : Fin 128 → EReal) (q : Fin 128) : EReal :=
  max (((∑ k : Fin 128, h k * Ws (ix2 k q)) + ∑ k : Fin 128, n k * Wn (ix2 k q)) + b q) 0

/-- The floored Euclidean length of a row. -/
def rowLength (a : Fin 128 → EReal) : EReal := max (Ideal.sqrt (∑ j : Fin 128, a j * a j)) lengthFloor

/-- The layer's output at column `q`. -/
def layer (h n e : Fin 128 → EReal) (Ws Wn : (⟨2, ![128, 128]⟩ : Shape).Idx → EReal) (b : Fin 128 → EReal) (q : Fin 128) : EReal :=
  Ideal.div (act h n Ws Wn b q) (rowLength (act h n Ws Wn b)) + e q

/-- The layer only depends on the rows' entries. -/
theorem layer_congr {h h' n n' e e' : Fin 128 → EReal} (Ws Wn : (⟨2, ![128, 128]⟩ : Shape).Idx → EReal) (b : Fin 128 → EReal) (q : Fin 128)
    (hh : ∀ k, h k = h' k) (hn : ∀ k, n k = n' k) (he : e q = e' q) : layer h n e Ws Wn b q = layer h' n' e' Ws Wn b q := by
  have e1 : h = h' := funext hh
  have e2 : n = n' := funext hn
  subst e1 e2
  unfold layer
  rw [he]

end Cert.SageLayer

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.LibRowLayers.lean ====
/-
  One dense layer of a multilayer network, read one row at a time over the extended reals.

  A dense layer sends a row `r` (of length K) to the row whose entry q is `∑ k, r k · W (k, q) + b q`: a product with a
  weight matrix and a bias added. Because entry (a, q) of `X · W + b` only looks at row a of `X`, a row block of the
  product can be computed from the same row block of `X`: this is what lets a kernel that walks over row blocks agree
  with one whole-matrix product. The layer is met in two spellings.

  * The accumulating spelling multiplies into a zero accumulator and stretches a one-row bias down the rows.
  * The host spelling uses the plain product and stretches the one-row bias by a dimension map.

  Both are read here at an entry (a, q) as `dense` of row a of the left operand. The rectifier `max · 0` is likewise met
  as a maximum with a splat of zero and as a maximum with a scalar zero stretched to the whole shape.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«155506_j4097398800995_1_alg».proof.Proof.LibColumnBlocks
import proofs.«155506_j4097398800995_1_alg».proof.Proof.LibCastForms

/-- For a literal product record `d` of two matrices: the left operand's row coordinate is the result's row coordinate. -/
macro "dot_lhs0" d:ident : tactic =>
  `(tactic| (intro j k
             unfold Idealize.ShloMosaic.DotDims.lhsIdx
             rw [dif_neg (show ¬(0 : Fin 2) ∈ ($d).lhsBatch by decide), dif_pos (show (0 : Fin 2) ∈ ($d).lhsNonContracting by decide)]
             rfl))

/-- For a literal product record `d` of two matrices: the right operand's column coordinate is the result's column coordinate. -/
macro "dot_rhs1" d:ident : tactic =>
  `(tactic| (intro j k
             unfold Idealize.ShloMosaic.DotDims.rhsIdx
             rw [dif_neg (show ¬(1 : Fin 2) ∈ ($d).rhsBatch by decide), dif_pos (show (1 : Fin 2) ∈ ($d).rhsNonContracting by decide)]
             rfl))

noncomputable section

namespace Cert.LibRowLayers

open Idealize.ShloMosaic Idealize.ShloMosaic.ValueIdx

/-- Entry q of the dense layer's image of the row `r`: `∑ k, r k · W (k, q) + b q`. -/
def dense {K H : ℕ} (r : Fin K → EReal) (W : (⟨2, ![K, H]⟩ : Shape).Idx → EReal) (b : Fin H → EReal) (q : Fin H) : EReal :=
  (∑ k : Fin K, r k * W (ix2 k q)) + b q

/-- The layer's value only depends on the row's entries. -/
theorem dense_congr {K H : ℕ} {r r' : Fin K → EReal} (W : (⟨2, ![K, H]⟩ : Shape).Idx → EReal) {b b' : Fin H → EReal} (q : Fin H)
    (hr : ∀ k, r k = r' k) (hb : b q = b' q) : dense r W b q = dense r' W b' q := by
  unfold dense
  rw [hb]
  exact congrArg (· + b' q) (Finset.sum_congr rfl fun k _ => by rw [hr k])

section Forms
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- The accumulating spelling at (p, q): the layer applied to row p of the left operand. -/
theorem tile_dense (prec : Option ContractPrecision) (x : FVec Ideal ⟨2, ![A, K]⟩ φ₁) (w : FVec Ideal ⟨2, ![K, B]⟩ φ₂)
    (b : FVec Ideal ⟨2, ![1, B]⟩ .f32) (hb : (⟨2, ![1, B]⟩ : Shape).Broadcasts ⟨2, ![A, B]⟩) (p : Fin A) (q : Fin B) :
    addf (matmul d prec x w (constant ⟨2, ![A, B]⟩ .f32 0x00000000#32)) (broadcastTo ⟨2, ![A, B]⟩ b hb) (ix2 p q)
      = dense (fun k => x (ix2 p k)) w (fun j => b (ix2 (0 : Fin 1) j)) q := by
  rw [addf_apply, LibColumnBlocks.matmul_zero_apply d hr hs hlc hrc hl0 hr1 x w p q prec, broadcastTo_1b_ab_apply b hb p q]
  rfl

include hr hs hlc hrc hl0 hr1 in
/-- The host spelling at (a, q): the layer applied to row a of the left operand. -/
theorem host_dense (prec : Option ContractPrecision) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2)) (a : Fin A) (q : Fin B) :
    addf (Host.dotGeneral d prec x w) (broadcastInDim ⟨2, ![A, B]⟩ (![0, 1] : Fin 2 → Fin 2) hb b) (ix2 a q)
      = dense (fun k => x (ix2 a k)) w (fun j => b (ix2 (0 : Fin 1) j)) q := by
  rw [addf_apply, LibColumnBlocks.hostDot_apply d hr hs hlc hrc hl0 hr1 x w a q prec, LibCastForms.bcast_1b_ab_apply b hb a q]
  rfl

end Forms

/-- The rectifier as a maximum with a splat of zero. -/
theorem tile_relu {s : Shape} (v : FVec Ideal s .f32) (i : s.Idx) :
    maximumf v (broadcast s (Scalar.ofBits (F := Ideal) .f32 0x00000000#32)) i = max (v i) 0 := by
  rw [maximumf_apply, broadcast_apply]
  show max _ (Ideal.ofBits .f32 0x00000000#32) = _
  rw [Ideal.ofBits_zero_f32]

/-- The rectifier as a maximum with a scalar zero stretched to the whole shape. -/
theorem host_relu {s : Shape} (v : FVec Ideal s .f32) (hz : (⟨0, ![]⟩ : Shape).BroadcastsInDim s ![]) (i : s.Idx) :
    maximumf v (broadcastInDim s ![] hz (constant (F := Ideal) ⟨0, ![]⟩ .f32 0x00000000#32)) i = max (v i) 0 := by
  rw [maximumf_apply, broadcastInDim_scalar_apply, constant_apply, Ideal.ofBits_zero_f32]

end Cert.LibRowLayers

end
-- ==== Proof.Payload.lean ====
/-
  What one call's body stores, read at an entry: the layer's value on the rows of the input blocks.

  The body computes, on a block of 2000 rows, the two products with the weight matrices (each into a zero
  accumulator, the operands narrowed to a shorter format on the way in — the identity on extended reals), adds the
  bias row stretched down the rows, rectifies, sums each row's squares along the lanes, takes the root, floors it,
  stretches the column of lengths back across the row, divides and adds the embedding block. At entry (p, q) every step
  only looks at row p of the blocks, so the result is the layer's value on row p.
-/
import proofs.«155506_j4097398800995_1_alg».proof.Proof.Gen.KernelIdeal.Skeleton
import proofs.«155506_j4097398800995_1_alg».proof.Proof.Layer
import proofs.«155506_j4097398800995_1_alg».proof.Proof.LibColumnBlocks
import proofs.«155506_j4097398800995_1_alg».proof.Proof.LibRowOps
import proofs.«155506_j4097398800995_1_alg».proof.Proof.LibRowLayers

noncomputable section

namespace Cert.KernelIdeal.Payload

open Idealize.ShloMosaic Idealize.ShloMosaic.ValueIdx Cert.KernelIdeal Cert.KernelIdeal.Gen Cert.SageLayer

variable (x0 x1 x2 : Vec Ideal S2000x128 .f32) (x3 x4 : Vec Ideal S128x128 .f32) (x5 : Vec Ideal S1x128 .f32)

/-- The rectified block: both products, the bias, the maximum with zero. -/
def rect : FVec Ideal S2000x128 .f32 :=
  maximumf
    (addf
      (addf
        (matmul dot_S2000x128_S128x128_S2000x128_1_0_0_1_n_n none
          (truncf .bf16 (shapeCast S2000x128 x0 shapeCasts_S2000x128_S2000x128) bitsLt_bf16_f32)
          (truncf .bf16 (shapeCast S128x128 x3 shapeCasts_S128x128_S128x128) bitsLt_bf16_f32)
          (constant S2000x128 .f32 0x00000000#32))
        (matmul dot_S2000x128_S128x128_S2000x128_1_0_0_1_n_n none
          (truncf .bf16 (shapeCast S2000x128 x1 shapeCasts_S2000x128_S2000x128) bitsLt_bf16_f32)
          (truncf .bf16 (shapeCast S128x128 x4 shapeCasts_S128x128_S128x128) bitsLt_bf16_f32)
          (constant S2000x128 .f32 0x00000000#32)))
      (broadcastTo S2000x128 (shapeCast S1x128 x5 shapeCasts_S1x128_S1x128) broadcasts_S1x128_S2000x128))
    (broadcast S2000x128 (Scalar.ofBits (F := Ideal) .f32 0x00000000#32))

/-- The stored value is the rectified block over its rows' floored lengths, plus the embedding block. -/
theorem pay_eq : k0_pay1 (F := Ideal) x0 x1 x3 x4 x5 x2
    = addf
        (divf (rect x0 x1 x3 x4 x5)
          (broadcastTo S2000x128
            (maximumf
              (sqrt (shapeCast S2000x1
                (multiReduction .add [1] S2000 (mulf (rect x0 x1 x3 x4 x5) (rect x0 x1 x3 x4 x5)) 0x00000000#32 reduces_S2000x128_S2000 (.inl rfl) rfl)
                shapeCasts_S2000_S2000x1))
              (broadcast S2000x1 (Scalar.ofBits (F := Ideal) .f32 0x2B8CBCCC#32)))
            broadcasts_S2000x1_S2000x128))
        (shapeCast S2000x128 x2 shapeCasts_S2000x128_S2000x128) := rfl

/-- The rectified block at (p, q): the rectified row of the layer, from row p of the two operand blocks. -/
theorem rect_apply (p : Fin 2000) (q : Fin 128) :
    rect x0 x1 x3 x4 x5 (ix2 p q)
      = act (fun k => x0 (ix2 p k)) (fun k => x1 (ix2 p k)) x3 x4 (fun j => x5 (ix2 (0 : Fin 1) j)) q := by
  unfold rect act
  rw [LibRowLayers.tile_relu, addf_apply, addf_apply,
    LibColumnBlocks.matmul_zero_apply dot_S2000x128_S128x128_S2000x128_1_0_0_1_n_n rfl rfl rfl rfl
      (by dot_lhs0 dot_S2000x128_S128x128_S2000x128_1_0_0_1_n_n) (by dot_rhs1 dot_S2000x128_S128x128_S2000x128_1_0_0_1_n_n) _ _ p q none,
    LibColumnBlocks.matmul_zero_apply dot_S2000x128_S128x128_S2000x128_1_0_0_1_n_n rfl rfl rfl rfl
      (by dot_lhs0 dot_S2000x128_S128x128_S2000x128_1_0_0_1_n_n) (by dot_rhs1 dot_S2000x128_S128x128_S2000x128_1_0_0_1_n_n) _ _ p q none,
    LibRowOps.bcast_1b_ab]
  simp only [truncf_apply, shapeCast_self]

/-- The stored block at (p, q): the layer's value on row p of the feature, neighbour-mean and embedding blocks. -/
theorem pay_apply (p : Fin 2000) (q : Fin 128) :
    k0_pay1 (F := Ideal) x0 x1 x3 x4 x5 x2 (ix2 p q)
      = layer (fun k => x0 (ix2 p k)) (fun k => x1 (ix2 p k)) (fun k => x2 (ix2 p k)) x3 x4 (fun j => x5 (ix2 (0 : Fin 1) j)) q := by
  rw [pay_eq, addf_apply, divf_apply, shapeCast_self, LibRowOps.bcast_a1_ab, maximumf_apply, broadcast_apply]
  show Ideal.div _ (max (Ideal.sqrt (shapeCast S2000x1 _ shapeCasts_S2000_S2000x1 (ix2 p (0 : Fin 1)))) _) + _ = _
  rw [LibRowOps.cast_a_a1, LibRowOps.sum_last2]
  simp only [mulf_apply, rect_apply]
  rfl

/-- The three calls store the same function of their blocks. -/
theorem pay1_eq : k1_pay1 (F := Ideal) = k0_pay1 (F := Ideal) := rfl
theorem pay2_eq : k2_pay1 (F := Ideal) = k0_pay1 (F := Ideal) := rfl

end Cert.KernelIdeal.Payload

end
-- ==== Proof.KIValue.lean ====
/-
  What each call leaves in its result array, over the extended reals: the layer's value, row by row, on the arrays the
  call finds.

  A call walks the rows in 50 blocks of 2000. At point `t` the three row-block windows hold rows 2000 t … 2000 t + 1999 of
  their arrays and the weight and bias windows hold their whole arrays; the body stores the layer's value on those rows,
  and the write-back puts it at the same rows of the result array. Entry (r, q) of the layer only looks at row r, so block
  `t` of the result is block `t` of one whole-array function; the 50 blocks tile the array.
-/
import proofs.«155506_j4097398800995_1_alg».proof.Proof.KIData
import proofs.«155506_j4097398800995_1_alg».proof.Proof.Payload
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.SageLayer

theorem hz : (![0, 0] : Fin 2 → Nat) = fun _ => 0 := funext fun a => by fin_cases a <;> rfl

/-- Row `p` of row block `t`. -/
def rowOf (t : ℕ) (p : Fin 2000) (ht : t < 50) : Fin 100000 := ⟨t * 2000 + p.val, by have := p.isLt; omega⟩

/-- The layer applied to every row of a feature matrix `h`, a neighbour-mean matrix `n` and an embedding matrix `e`. -/
def layerArr (h n e : S100000x128.Idx → EReal) (Ws Wn : S128x128.Idx → EReal) (b : S1x128.Idx → EReal) : S100000x128.Idx → EReal :=
  fun i => layer (fun k => h (ix2 (i 0 : Fin 100000) k)) (fun k => n (ix2 (i 0 : Fin 100000) k)) (fun k => e (ix2 (i 0 : Fin 100000) k))
    Ws Wn (fun j => b (ix2 (0 : Fin 1) j)) (i 1 : Fin 128)

variable (V : (c : Dev nD) → (b : Ref sig .tc) → Buf (Elt Ideal) ((c : Thread nD τ).loc b))

/-- Call 0 has 50 points. -/
theorem lt50_0 (t : Fin cfg0.N) : t.val < 50 := by
  have h : cfg0.N = 50 := N_0
  have := t.isLt
  omega

/-! ## Call 0 -/

/-- The printed index maps of call 0, decided over its 50 points: the three row-block inputs and the output sit at row block
    `t`, column block 0; the weights and the bias row are whole. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry (p, k) of a row-block window's block at point `t` is entry (2000 t + p, k) of its array. -/
theorem blk0_0 (c : Dev nD) (t : Fin cfg0.N) (p : Fin 2000) (k : Fin 128) :
    iblk0 V c 0 t (ix2 p k) = V c main_v6 (ix2 (rowOf t.val p (lt50_0 t)) k) := by
  obtain ⟨e00, e01, -⟩ := idx_facts0 t
  show V c main_v6 (((cfg0.win 0).blk t).view.emb (ix2 p k)) = _
  refine congrArg _ (funext fun a => Fin.ext ?_)
  match a with
  | ⟨0, _⟩ => show win0_0.index t (0 : Fin 2) * 2000 + 1 * p.val = t.val * 2000 + p.val; rw [e00]; omega
  | ⟨1, _⟩ => show win0_0.index t (1 : Fin 2) * 128 + 1 * k.val = k.val; rw [e01]; omega
theorem blk0_1 (c : Dev nD) (t : Fin cfg0.N) (p : Fin 2000) (k : Fin 128) :
    iblk0 V c 1 t (ix2 p k) = V c main_v27 (ix2 (rowOf t.val p (lt50_0 t)) k) := by
  obtain ⟨-, -, e10, e11, -⟩ := idx_facts0 t
  show V c main_v27 (((cfg0.win 1).blk t).view.emb (ix2 p k)) = _
  refine congrArg _ (funext fun a => Fin.ext ?_)
  match a with
  | ⟨0, _⟩ => show win0_1.index t (0 : Fin 2) * 2000 + 1 * p.val = t.val * 2000 + p.val; rw [e10]; omega
  | ⟨1, _⟩ => show win0_1.index t (1 : Fin 2) * 128 + 1 * k.val = k.val; rw [e11]; omega
theorem blk0_2 (c : Dev nD) (t : Fin cfg0.N) (p : Fin 2000) (k : Fin 128) :
    iblk0 V c 2 t (ix2 p k) = V c main_v6 (ix2 (rowOf t.val p (lt50_0 t)) k) := by
  obtain ⟨-, -, -, -, e20, e21, -⟩ := idx_facts0 t
  show V c main_v6 (((cfg0.win 2).blk t).view.emb (ix2 p k)) = _
  refine congrArg _ (funext fun a => Fin.ext ?_)
  match a with
  | ⟨0, _⟩ => show win0_2.index t (0 : Fin 2) * 2000 + 1 * p.val = t.val * 2000 + p.val; rw [e20]; omega
  | ⟨1, _⟩ => show win0_2.index t (1 : Fin 2) * 128 + 1 * k.val = k.val; rw [e21]; omega
/-- The weight and bias windows' one block is the whole array. -/
theorem blk0_3 (c : Dev nD) (t : Fin cfg0.N) : iblk0 V c 3 t = V c main_v29 := by
  obtain ⟨-, -, -, -, -, -, e30, e31, -⟩ := idx_facts0 t
  funext y
  show V c main_v29 (((cfg0.win 3).blk t).view.emb y) = _
  refine congrArg _ (funext fun a => Fin.ext ?_)
  match a with
  | ⟨0, _⟩ => show win0_3.index t (0 : Fin 2) * 128 + 1 * (y 0).val = (y 0).val; rw [e30]; omega
  | ⟨1, _⟩ => show win0_3.index t (1 : Fin 2) * 128 + 1 * (y 1).val = (y 1).val; rw [e31]; omega
theorem blk0_4 (c : Dev nD) (t : Fin cfg0.N) : iblk0 V c 4 t = V c main_v31 := by
  obtain ⟨-, -, -, -, -, -, -, -, e40, e41, -⟩ := idx_facts0 t
  funext y
  show V c main_v31 (((cfg0.win 4).blk t).view.emb y) = _
  refine congrArg _ (funext fun a => Fin.ext ?_)
  match a with
  | ⟨0, _⟩ => show win0_4.index t (0 : Fin 2) * 128 + 1 * (y 0).val = (y 0).val; rw [e40]; omega
  | ⟨1, _⟩ => show win0_4.index t (1 : Fin 2) * 128 + 1 * (y 1).val = (y 1).val; rw [e41]; omega
theorem blk0_5 (c : Dev nD) (t : Fin cfg0.N) : iblk0 V c 5 t = V c main_v34 := by
  obtain ⟨-, -, -, -, -, -, -, -, -, -, e50, e51, -⟩ := idx_facts0 t
  funext y
  show V c main_v34 (((cfg0.win 5).blk t).view.emb y) = _
  refine congrArg _ (funext fun a => Fin.ext ?_)
  match a with
  | ⟨0, _⟩ => show win0_5.index t (0 : Fin 2) * 1 + 1 * (y 0).val = (y 0).val; rw [e50]; omega
  | ⟨1, _⟩ => show win0_5.index t (1 : Fin 2) * 128 + 1 * (y 1).val = (y 1).val; rw [e51]; omega
/-- Entry (p, q) of the output's block at point `t` sits at (2000 t + p, q) of the result array. -/
theorem emb0_6 (t : Fin cfg0.N) (p : Fin 2000) (q : Fin 128) :
    ((cfg0.win 6).blk t).view.emb (ix2 p q) = ix2 (rowOf t.val p (lt50_0 t)) q := by
  obtain ⟨-, -, -, -, -, -, -, -, -, -, -, -, e60, e61⟩ := idx_facts0 t
  refine funext fun a => Fin.ext ?_
  match a with
  | ⟨0, _⟩ => show win0_6.index t (0 : Fin 2) * 2000 + 1 * p.val = t.val * 2000 + p.val; rw [e60]; omega
  | ⟨1, _⟩ => show win0_6.index t (1 : Fin 2) * 128 + 1 * q.val = q.val; rw [e61]; omega

/-- What point `t` of call 0 writes back is block `t` of the layer's value on the arrays the call finds. -/
theorem flushed0_eq (c : Dev nD) (t : Fin cfg0.N) :
    (dat0 V c).flushed 6 t = ((cfg0.win 6).blk t).view.read (Elt Ideal)
      (layerArr (V c main_v6) (V c main_v27) (V c main_v6) (V c main_v29) (V c main_v31) (V c main_v34)) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 3 t) (iblk0 V c 4 t) (iblk0 V c 5 t) (iblk0 V c 2 t) (ix2 p q)
    = layerArr (V c main_v6) (V c main_v27) (V c main_v6) (V c main_v29) (V c main_v31) (V c main_v34) (((cfg0.win 6).blk t).view.emb (ix2 p q))
  rw [emb0_6 t p q]
  refine (Payload.pay_apply (iblk0 V c 0 t) (iblk0 V c 1 t) (iblk0 V c 2 t) (iblk0 V c 3 t) (iblk0 V c 4 t) (iblk0 V c 5 t) p q).trans ?_
  rw [blk0_3 V c t, blk0_4 V c t, blk0_5 V c t]
  unfold layerArr
  exact layer_congr _ _ _ _ (fun k => blk0_0 V c t p k) (fun k => blk0_1 V c t p k) (blk0_2 V c t p q)

/-- An index of the result array is in point `t`'s block iff each coordinate is in the block's range. -/
theorem mem_blk0 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v35).slice (win0_6.rect t)).set ↔ _
  rw [View.set_slice_whole, Rect.mem_set_unit]
  exact Iff.rfl

/-- The 50 row blocks tile the 100000 rows: row r is in block r / 2000. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_6 _, ?_⟩
  rw [mem_blk0]
  obtain ⟨-, -, -, -, -, -, -, -, -, -, -, -, e60, e61⟩ := idx_facts0 ⟨(i 0).val / 2000, by rw [hN]; omega⟩
  intro a
  match a with
  | ⟨0, _⟩ => show win0_6.index _ (0 : Fin 2) * 2000 ≤ (i 0).val ∧ (i 0).val < win0_6.index _ (0 : Fin 2) * 2000 + 2000; rw [e60]; show (i 0).val / 2000 * 2000 ≤ (i 0).val ∧ (i 0).val < (i 0).val / 2000 * 2000 + 2000; omega
  | ⟨1, _⟩ => show win0_6.index _ (1 : Fin 2) * 128 ≤ (i 1).val ∧ (i 1).val < win0_6.index _ (1 : Fin 2) * 128 + 128; rw [e61]; omega

/-- The result array of call 0 after its 50 points: the layer's value, row by row, on the arrays the call finds. -/
theorem final0 (c : Dev nD) : (dat0 V c).arrAt 6 cfg0.N
    = layerArr (V c main_v6) (V c main_v27) (V c main_v6) (V c main_v29) (V c main_v31) (V c main_v34) :=
  (dat0 V c).arrAt_eq_of_cover 6 _ (fun t _ => flushed0_eq V c t) (cover0)

/-- Call 1 has 50 points. -/
theorem lt50_1 (t : Fin cfg1.N) : t.val < 50 := by
  have h : cfg1.N = 50 := N_1
  have := t.isLt
  omega

/-! ## Call 1 -/

/-- The printed index maps of call 1, decided over its 50 points: the three row-block inputs and the output sit at row block
    `t`, column block 0; the weights and the bias row are whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry (p, k) of a row-block window's block at point `t` is entry (2000 t + p, k) of its array. -/
theorem blk1_0 (c : Dev nD) (t : Fin cfg1.N) (p : Fin 2000) (k : Fin 128) :
    iblk1 V c 0 t (ix2 p k) = V c main_v35 (ix2 (rowOf t.val p (lt50_1 t)) k) := by
  obtain ⟨e00, e01, -⟩ := idx_facts1 t
  show V c main_v35 (((cfg1.win 0).blk t).view.emb (ix2 p k)) = _
  refine congrArg _ (funext fun a => Fin.ext ?_)
  match a with
  | ⟨0, _⟩ => show win1_0.index t (0 : Fin 2) * 2000 + 1 * p.val = t.val * 2000 + p.val; rw [e00]; omega
  | ⟨1, _⟩ => show win1_0.index t (1 : Fin 2) * 128 + 1 * k.val = k.val; rw [e01]; omega
theorem blk1_1 (c : Dev nD) (t : Fin cfg1.N) (p : Fin 2000) (k : Fin 128) :
    iblk1 V c 1 t (ix2 p k) = V c main_v48 (ix2 (rowOf t.val p (lt50_1 t)) k) := by
  obtain ⟨-, -, e10, e11, -⟩ := idx_facts1 t
  show V c main_v48 (((cfg1.win 1).blk t).view.emb (ix2 p k)) = _
  refine congrArg _ (funext fun a => Fin.ext ?_)
  match a with
  | ⟨0, _⟩ => show win1_1.index t (0 : Fin 2) * 2000 + 1 * p.val = t.val * 2000 + p.val; rw [e10]; omega
  | ⟨1, _⟩ => show win1_1.index t (1 : Fin 2) * 128 + 1 * k.val = k.val; rw [e11]; omega
theorem blk1_2 (c : Dev nD) (t : Fin cfg1.N) (p : Fin 2000) (k : Fin 128) :
    iblk1 V c 2 t (ix2 p k) = V c main_v6 (ix2 (rowOf t.val p (lt50_1 t)) k) := by
  obtain ⟨-, -, -, -, e20, e21, -⟩ := idx_facts1 t
  show V c main_v6 (((cfg1.win 2).blk t).view.emb (ix2 p k)) = _
  refine congrArg _ (funext fun a => Fin.ext ?_)
  match a with
  | ⟨0, _⟩ => show win1_2.index t (0 : Fin 2) * 2000 + 1 * p.val = t.val * 2000 + p.val; rw [e20]; omega
  | ⟨1, _⟩ => show win1_2.index t (1 : Fin 2) * 128 + 1 * k.val = k.val; rw [e21]; omega
/-- The weight and bias windows' one block is the whole array. -/
theorem blk1_3 (c : Dev nD) (t : Fin cfg1.N) : iblk1 V c 3 t = V c main_v50 := by
  obtain ⟨-, -, -, -, -, -, e30, e31, -⟩ := idx_facts1 t
  funext y
  show V c main_v50 (((cfg1.win 3).blk t).view.emb y) = _
  refine congrArg _ (funext fun a => Fin.ext ?_)
  match a with
  | ⟨0, _⟩ => show win1_3.index t (0 : Fin 2) * 128 + 1 * (y 0).val = (y 0).val; rw [e30]; omega
  | ⟨1, _⟩ => show win1_3.index t (1 : Fin 2) * 128 + 1 * (y 1).val = (y 1).val; rw [e31]; omega
theorem blk1_4 (c : Dev nD) (t : Fin cfg1.N) : iblk1 V c 4 t = V c main_v52 := by
  obtain ⟨-, -, -, -, -, -, -, -, e40, e41, -⟩ := idx_facts1 t
  funext y
  show V c main_v52 (((cfg1.win 4).blk t).view.emb y) = _
  refine congrArg _ (funext fun a => Fin.ext ?_)
  match a with
  | ⟨0, _⟩ => show win1_4.index t (0 : Fin 2) * 128 + 1 * (y 0).val = (y 0).val; rw [e40]; omega
  | ⟨1, _⟩ => show win1_4.index t (1 : Fin 2) * 128 + 1 * (y 1).val = (y 1).val; rw [e41]; omega
theorem blk1_5 (c : Dev nD) (t : Fin cfg1.N) : iblk1 V c 5 t = V c main_v55 := by
  obtain ⟨-, -, -, -, -, -, -, -, -, -, e50, e51, -⟩ := idx_facts1 t
  funext y
  show V c main_v55 (((cfg1.win 5).blk t).view.emb y) = _
  refine congrArg _ (funext fun a => Fin.ext ?_)
  match a with
  | ⟨0, _⟩ => show win1_5.index t (0 : Fin 2) * 1 + 1 * (y 0).val = (y 0).val; rw [e50]; omega
  | ⟨1, _⟩ => show win1_5.index t (1 : Fin 2) * 128 + 1 * (y 1).val = (y 1).val; rw [e51]; omega
/-- Entry (p, q) of the output's block at point `t` sits at (2000 t + p, q) of the result array. -/
theorem emb1_6 (t : Fin cfg1.N) (p : Fin 2000) (q : Fin 128) :
    ((cfg1.win 6).blk t).view.emb (ix2 p q) = ix2 (rowOf t.val p (lt50_1 t)) q := by
  obtain ⟨-, -, -, -, -, -, -, -, -, -, -, -, e60, e61⟩ := idx_facts1 t
  refine funext fun a => Fin.ext ?_
  match a with
  | ⟨0, _⟩ => show win1_6.index t (0 : Fin 2) * 2000 + 1 * p.val = t.val * 2000 + p.val; rw [e60]; omega
  | ⟨1, _⟩ => show win1_6.index t (1 : Fin 2) * 128 + 1 * q.val = q.val; rw [e61]; omega

/-- What point `t` of call 1 writes back is block `t` of the layer's value on the arrays the call finds. -/
theorem flushed1_eq (c : Dev nD) (t : Fin cfg1.N) :
    (dat1 V c).flushed 6 t = ((cfg1.win 6).blk t).view.read (Elt Ideal)
      (layerArr (V c main_v35) (V c main_v48) (V c main_v6) (V c main_v50) (V c main_v52) (V c main_v55)) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 3 t) (iblk1 V c 4 t) (iblk1 V c 5 t) (iblk1 V c 2 t) (ix2 p q)
    = layerArr (V c main_v35) (V c main_v48) (V c main_v6) (V c main_v50) (V c main_v52) (V c main_v55) (((cfg1.win 6).blk t).view.emb (ix2 p q))
  rw [emb1_6 t p q, Payload.pay1_eq]
  refine (Payload.pay_apply (iblk1 V c 0 t) (iblk1 V c 1 t) (iblk1 V c 2 t) (iblk1 V c 3 t) (iblk1 V c 4 t) (iblk1 V c 5 t) p q).trans ?_
  rw [blk1_3 V c t, blk1_4 V c t, blk1_5 V c t]
  unfold layerArr
  exact layer_congr _ _ _ _ (fun k => blk1_0 V c t p k) (fun k => blk1_1 V c t p k) (blk1_2 V c t p q)

/-- An index of the result array is in point `t`'s block iff each coordinate is in the block's range. -/
theorem mem_blk1 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v56).slice (win1_6.rect t)).set ↔ _
  rw [View.set_slice_whole, Rect.mem_set_unit]
  exact Iff.rfl

/-- The 50 row blocks tile the 100000 rows: row r is in block r / 2000. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_6 _, ?_⟩
  rw [mem_blk1]
  obtain ⟨-, -, -, -, -, -, -, -, -, -, -, -, e60, e61⟩ := idx_facts1 ⟨(i 0).val / 2000, by rw [hN]; omega⟩
  intro a
  match a with
  | ⟨0, _⟩ => show win1_6.index _ (0 : Fin 2) * 2000 ≤ (i 0).val ∧ (i 0).val < win1_6.index _ (0 : Fin 2) * 2000 + 2000; rw [e60]; show (i 0).val / 2000 * 2000 ≤ (i 0).val ∧ (i 0).val < (i 0).val / 2000 * 2000 + 2000; omega
  | ⟨1, _⟩ => show win1_6.index _ (1 : Fin 2) * 128 ≤ (i 1).val ∧ (i 1).val < win1_6.index _ (1 : Fin 2) * 128 + 128; rw [e61]; omega

/-- The result array of call 1 after its 50 points: the layer's value, row by row, on the arrays the call finds. -/
theorem final1 (c : Dev nD) : (dat1 V c).arrAt 6 cfg1.N
    = layerArr (V c main_v35) (V c main_v48) (V c main_v6) (V c main_v50) (V c main_v52) (V c main_v55) :=
  (dat1 V c).arrAt_eq_of_cover 6 _ (fun t _ => flushed1_eq V c t) (cover1)

/-- Call 2 has 50 points. -/
theorem lt50_2 (t : Fin cfg2.N) : t.val < 50 := by
  have h : cfg2.N = 50 := N_2
  have := t.isLt
  omega

/-! ## Call 2 -/

/-- The printed index maps of call 2, decided over its 50 points: the three row-block inputs and the output sit at row block
    `t`, column block 0; the weights and the bias row are whole. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Entry (p, k) of a row-block window's block at point `t` is entry (2000 t + p, k) of its array. -/
theorem blk2_0 (c : Dev nD) (t : Fin cfg2.N) (p : Fin 2000) (k : Fin 128) :
    iblk2 V c 0 t (ix2 p k) = V c main_v56 (ix2 (rowOf t.val p (lt50_2 t)) k) := by
  obtain ⟨e00, e01, -⟩ := idx_facts2 t
  show V c main_v56 (((cfg2.win 0).blk t).view.emb (ix2 p k)) = _
  refine congrArg _ (funext fun a => Fin.ext ?_)
  match a with
  | ⟨0, _⟩ => show win2_0.index t (0 : Fin 2) * 2000 + 1 * p.val = t.val * 2000 + p.val; rw [e00]; omega
  | ⟨1, _⟩ => show win2_0.index t (1 : Fin 2) * 128 + 1 * k.val = k.val; rw [e01]; omega
theorem blk2_1 (c : Dev nD) (t : Fin cfg2.N) (p : Fin 2000) (k : Fin 128) :
    iblk2 V c 1 t (ix2 p k) = V c main_v69 (ix2 (rowOf t.val p (lt50_2 t)) k) := by
  obtain ⟨-, -, e10, e11, -⟩ := idx_facts2 t
  show V c main_v69 (((cfg2.win 1).blk t).view.emb (ix2 p k)) = _
  refine congrArg _ (funext fun a => Fin.ext ?_)
  match a with
  | ⟨0, _⟩ => show win2_1.index t (0 : Fin 2) * 2000 + 1 * p.val = t.val * 2000 + p.val; rw [e10]; omega
  | ⟨1, _⟩ => show win2_1.index t (1 : Fin 2) * 128 + 1 * k.val = k.val; rw [e11]; omega
theorem blk2_2 (c : Dev nD) (t : Fin cfg2.N) (p : Fin 2000) (k : Fin 128) :
    iblk2 V c 2 t (ix2 p k) = V c main_v6 (ix2 (rowOf t.val p (lt50_2 t)) k) := by
  obtain ⟨-, -, -, -, e20, e21, -⟩ := idx_facts2 t
  show V c main_v6 (((cfg2.win 2).blk t).view.emb (ix2 p k)) = _
  refine congrArg _ (funext fun a => Fin.ext ?_)
  match a with
  | ⟨0, _⟩ => show win2_2.index t (0 : Fin 2) * 2000 + 1 * p.val = t.val * 2000 + p.val; rw [e20]; omega
  | ⟨1, _⟩ => show win2_2.index t (1 : Fin 2) * 128 + 1 * k.val = k.val; rw [e21]; omega
/-- The weight and bias windows' one block is the whole array. -/
theorem blk2_3 (c : Dev nD) (t : Fin cfg2.N) : iblk2 V c 3 t = V c main_v71 := by
  obtain ⟨-, -, -, -, -, -, e30, e31, -⟩ := idx_facts2 t
  funext y
  show V c main_v71 (((cfg2.win 3).blk t).view.emb y) = _
  refine congrArg _ (funext fun a => Fin.ext ?_)
  match a with
  | ⟨0, _⟩ => show win2_3.index t (0 : Fin 2) * 128 + 1 * (y 0).val = (y 0).val; rw [e30]; omega
  | ⟨1, _⟩ => show win2_3.index t (1 : Fin 2) * 128 + 1 * (y 1).val = (y 1).val; rw [e31]; omega
theorem blk2_4 (c : Dev nD) (t : Fin cfg2.N) : iblk2 V c 4 t = V c main_v73 := by
  obtain ⟨-, -, -, -, -, -, -, -, e40, e41, -⟩ := idx_facts2 t
  funext y
  show V c main_v73 (((cfg2.win 4).blk t).view.emb y) = _
  refine congrArg _ (funext fun a => Fin.ext ?_)
  match a with
  | ⟨0, _⟩ => show win2_4.index t (0 : Fin 2) * 128 + 1 * (y 0).val = (y 0).val; rw [e40]; omega
  | ⟨1, _⟩ => show win2_4.index t (1 : Fin 2) * 128 + 1 * (y 1).val = (y 1).val; rw [e41]; omega
theorem blk2_5 (c : Dev nD) (t : Fin cfg2.N) : iblk2 V c 5 t = V c main_v76 := by
  obtain ⟨-, -, -, -, -, -, -, -, -, -, e50, e51, -⟩ := idx_facts2 t
  funext y
  show V c main_v76 (((cfg2.win 5).blk t).view.emb y) = _
  refine congrArg _ (funext fun a => Fin.ext ?_)
  match a with
  | ⟨0, _⟩ => show win2_5.index t (0 : Fin 2) * 1 + 1 * (y 0).val = (y 0).val; rw [e50]; omega
  | ⟨1, _⟩ => show win2_5.index t (1 : Fin 2) * 128 + 1 * (y 1).val = (y 1).val; rw [e51]; omega
/-- Entry (p, q) of the output's block at point `t` sits at (2000 t + p, q) of the result array. -/
theorem emb2_6 (t : Fin cfg2.N) (p : Fin 2000) (q : Fin 128) :
    ((cfg2.win 6).blk t).view.emb (ix2 p q) = ix2 (rowOf t.val p (lt50_2 t)) q := by
  obtain ⟨-, -, -, -, -, -, -, -, -, -, -, -, e60, e61⟩ := idx_facts2 t
  refine funext fun a => Fin.ext ?_
  match a with
  | ⟨0, _⟩ => show win2_6.index t (0 : Fin 2) * 2000 + 1 * p.val = t.val * 2000 + p.val; rw [e60]; omega
  | ⟨1, _⟩ => show win2_6.index t (1 : Fin 2) * 128 + 1 * q.val = q.val; rw [e61]; omega

/-- What point `t` of call 2 writes back is block `t` of the layer's value on the arrays the call finds. -/
theorem flushed2_eq (c : Dev nD) (t : Fin cfg2.N) :
    (dat2 V c).flushed 6 t = ((cfg2.win 6).blk t).view.read (Elt Ideal)
      (layerArr (V c main_v56) (V c main_v69) (V c main_v6) (V c main_v71) (V c main_v73) (V c main_v76)) := by
  show (cfg2.win 6).cut (grid2.coords t) ((dat2 V c).after 6 t) = _
  rw [after2_6]
  unfold out2_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 3 t) (iblk2 V c 4 t) (iblk2 V c 5 t) (iblk2 V c 2 t) (ix2 p q)
    = layerArr (V c main_v56) (V c main_v69) (V c main_v6) (V c main_v71) (V c main_v73) (V c main_v76) (((cfg2.win 6).blk t).view.emb (ix2 p q))
  rw [emb2_6 t p q, Payload.pay2_eq]
  refine (Payload.pay_apply (iblk2 V c 0 t) (iblk2 V c 1 t) (iblk2 V c 2 t) (iblk2 V c 3 t) (iblk2 V c 4 t) (iblk2 V c 5 t) p q).trans ?_
  rw [blk2_3 V c t, blk2_4 V c t, blk2_5 V c t]
  unfold layerArr
  exact layer_congr _ _ _ _ (fun k => blk2_0 V c t p k) (fun k => blk2_1 V c t p k) (blk2_2 V c t p q)

/-- An index of the result array is in point `t`'s block iff each coordinate is in the block's range. -/
theorem mem_blk2 (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v77).slice (win2_6.rect t)).set ↔ _
  rw [View.set_slice_whole, Rect.mem_set_unit]
  exact Iff.rfl

/-- The 50 row blocks tile the 100000 rows: row r is in block r / 2000. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 50 := N_2
  refine ⟨⟨(i 0).val / 2000, by rw [hN]; omega⟩, flush2_6 _, ?_⟩
  rw [mem_blk2]
  obtain ⟨-, -, -, -, -, -, -, -, -, -, -, -, e60, e61⟩ := idx_facts2 ⟨(i 0).val / 2000, by rw [hN]; omega⟩
  intro a
  match a with
  | ⟨0, _⟩ => show win2_6.index _ (0 : Fin 2) * 2000 ≤ (i 0).val ∧ (i 0).val < win2_6.index _ (0 : Fin 2) * 2000 + 2000; rw [e60]; show (i 0).val / 2000 * 2000 ≤ (i 0).val ∧ (i 0).val < (i 0).val / 2000 * 2000 + 2000; omega
  | ⟨1, _⟩ => show win2_6.index _ (1 : Fin 2) * 128 ≤ (i 1).val ∧ (i 1).val < win2_6.index _ (1 : Fin 2) * 128 + 128; rw [e61]; omega

/-- The result array of call 2 after its 50 points: the layer's value, row by row, on the arrays the call finds. -/
theorem final2 (c : Dev nD) : (dat2 V c).arrAt 6 cfg2.N
    = layerArr (V c main_v56) (V c main_v69) (V c main_v6) (V c main_v71) (V c main_v73) (V c main_v76) :=
  (dat2 V c).arrAt_eq_of_cover 6 _ (fun t _ => flushed2_eq V c t) (cover2)

end Cert.KernelIdeal.Hand

end
-- ==== Proof.KIHost.lean ====
/-
  The host operations before the first call, against the reference's stages.

  Before each of its three calls the program prepares the call's operands by host operations on whole arrays, and
  the reference computes the same arrays by the same operations, one named stage per operation. Before the first call:
  the embedding rows of the nodes (a node identifier below zero counted from the end of the table); the reciprocal of
  each node's in-degree, the degree taken at least one; the mean over each node's incoming edges of the source
  nodes' embedding rows (the rows gathered at the edges' sources, summed at the edges' targets, times the reciprocal
  degree along the row); the first layer's two weight matrices and its bias, cut out of the stacks of the three
  layers', the bias as a row. Each is, from any contents of the buffers that hold the seven arguments, the
  reference's stage of the same arguments: the two spell the same term, operation for operation.

  Last, what a stretch of host operations does not write it leaves as it was.
-/
import proofs.«155506_j4097398800995_1_alg».proof.Proof.Gen.KernelIdeal.Regions
import proofs.«155506_j4097398800995_1_alg».proof.Proof.Gen.ReferenceIdeal.Read
import Idealize.ShloMosaic.Lib.StableHlo.Run

noncomputable section

namespace Cert.KernelIdeal.Hand

open Idealize.ShloMosaic Idealize.ShloMosaic.TcCoe
open Idealize.SL.Sem
open Cert.KernelIdeal Cert.KernelIdeal.Gen

/-! ## What a stretch does not write -/

section Keep
variable {F : FTy → Type} [FloatOps F] (Y : Valuation τ sig (Elt F))

/-- A buffer that is not among those the host operations before the first call write holds after them what it held before. -/
theorem keep0 (r : Ref sig .tc) (h : r ∉ hostOps0_W) : StableHlo.after (hostOps0 (F := F)) Y r = Y r :=
  StableHlo.after_of_writes_sub hostOps0 _ hostOps0_writes h
/-- The same for the host operations between the first call and the second, -/
theorem keep1 (r : Ref sig .tc) (h : r ∉ hostOps1_W) : StableHlo.after (hostOps1 (F := F)) Y r = Y r :=
  StableHlo.after_of_writes_sub hostOps1 _ hostOps1_writes h
/-- and for those between the second call and the third. -/
theorem keep2 (r : Ref sig .tc) (h : r ∉ hostOps2_W) : StableHlo.after (hostOps2 (F := F)) Y r = Y r :=
  StableHlo.after_of_writes_sub hostOps2 _ hostOps2_writes h

end Keep

/-! ## Before the first call -/

-- any contents of the buffers, and the seven arguments: the node identifiers, the edges' sources and targets, the
-- embedding table, the two stacks of weight matrices and the stack of biases
variable (X : Valuation τ sig (Elt Ideal))
variable (x0 : (⟨S100000, .i32⟩ : BufTy).Contents (Elt Ideal)) (x1 x2 : (⟨S1600000, .i32⟩ : BufTy).Contents (Elt Ideal))
  (x3 : (⟨S5000x128, .f32⟩ : BufTy).Contents (Elt Ideal)) (x4 x5 : (⟨S3x128x128, .f32⟩ : BufTy).Contents (Elt Ideal))
  (x6 : (⟨S3x128, .f32⟩ : BufTy).Contents (Elt Ideal))

/-- The nodes' embedding rows: the table's rows gathered at the node identifiers, an identifier below zero moved up by the table's 5000 rows. -/
theorem stretch0_v6 (h0 : X main_arg0 = x0) (h3 : X main_arg3 = x3) :
    StableHlo.after (hostOps0 (F := Ideal)) X main_v6 = ReferenceIdeal.Read.val_main_v6 x0 x3 := by
  after_results_simp
  rw [h0, h3]
  unfold ReferenceIdeal.Read.val_main_v6 ReferenceIdeal.Read.val_main_v5 ReferenceIdeal.Read.val_main_v4 ReferenceIdeal.Read.val_main_v3 ReferenceIdeal.Read.val_main_v2 ReferenceIdeal.Read.val_main_c_0 ReferenceIdeal.Read.val_main_v1 ReferenceIdeal.Read.val_main_v0 ReferenceIdeal.Read.val_main_c
  rfl

/-- The reciprocal in-degrees: one over the number of edges into each node, that number taken at least one. -/
theorem stretch0_v14 (h2 : X main_arg2 = x2) :
    StableHlo.after (hostOps0 (F := Ideal)) X main_v14 = ReferenceIdeal.Read.val_main_v14 x2 := by
  after_results_simp
  rw [h2]
  unfold ReferenceIdeal.Read.val_main_v14 ReferenceIdeal.Read.val_main_v13 ReferenceIdeal.Read.val_main_cst_3 ReferenceIdeal.Read.val_main_v12 ReferenceIdeal.Read.val_main_v11 ReferenceIdeal.Read.val_main_cst_2 ReferenceIdeal.Read.val_main_v10 ReferenceIdeal.Read.val_main_v9 ReferenceIdeal.Read.val_main_v8 ReferenceIdeal.Read.val_main_cst_1 ReferenceIdeal.Read.val_main_v7 ReferenceIdeal.Read.val_main_cst
  rfl

/-- The neighbour means of the embedding rows: the rows gathered at the edges' sources, summed at the edges' targets,
    each node's sum times its reciprocal in-degree. -/
theorem stretch0_v27 (h0 : X main_arg0 = x0) (h1 : X main_arg1 = x1) (h2 : X main_arg2 = x2) (h3 : X main_arg3 = x3) :
    StableHlo.after (hostOps0 (F := Ideal)) X main_v27 = ReferenceIdeal.Read.val_main_v27 x0 x1 x2 x3 := by
  after_results_simp
  rw [h0, h1, h2, h3]
  unfold ReferenceIdeal.Read.val_main_v27 ReferenceIdeal.Read.val_main_v26 ReferenceIdeal.Read.val_main_v25 ReferenceIdeal.Read.val_main_v24 ReferenceIdeal.Read.val_main_v23 ReferenceIdeal.Read.val_main_v22 ReferenceIdeal.Read.val_main_cst_6 ReferenceIdeal.Read.val_main_v21 ReferenceIdeal.Read.val_main_v20 ReferenceIdeal.Read.val_main_v19 ReferenceIdeal.Read.val_main_v18 ReferenceIdeal.Read.val_main_v17 ReferenceIdeal.Read.val_main_c_5 ReferenceIdeal.Read.val_main_v16 ReferenceIdeal.Read.val_main_v15 ReferenceIdeal.Read.val_main_c_4 ReferenceIdeal.Read.val_main_v14 ReferenceIdeal.Read.val_main_v13 ReferenceIdeal.Read.val_main_cst_3 ReferenceIdeal.Read.val_main_v12 ReferenceIdeal.Read.val_main_v11 ReferenceIdeal.Read.val_main_cst_2 ReferenceIdeal.Read.val_main_v10 ReferenceIdeal.Read.val_main_v9 ReferenceIdeal.Read.val_main_v8 ReferenceIdeal.Read.val_main_cst_1 ReferenceIdeal.Read.val_main_v7 ReferenceIdeal.Read.val_main_cst ReferenceIdeal.Read.val_main_v6 ReferenceIdeal.Read.val_main_v5 ReferenceIdeal.Read.val_main_v4 ReferenceIdeal.Read.val_main_v3 ReferenceIdeal.Read.val_main_v2 ReferenceIdeal.Read.val_main_c_0 ReferenceIdeal.Read.val_main_v1 ReferenceIdeal.Read.val_main_v0 ReferenceIdeal.Read.val_main_c
  rfl

/-- The first layer's weight matrix on a node's own row: the first of the three in its stack. -/
theorem stretch0_v29 (h4 : X main_arg4 = x4) :
    StableHlo.after (hostOps0 (F := Ideal)) X main_v29 = ReferenceIdeal.Read.val_main_v29 x4 := by
  after_results_simp
  rw [h4]
  unfold ReferenceIdeal.Read.val_main_v29 ReferenceIdeal.Read.val_main_v28
  rfl

/-- The first layer's weight matrix on the neighbour mean: the first of the three in its stack. -/
theorem stretch0_v31 (h5 : X main_arg5 = x5) :
    StableHlo.after (hostOps0 (F := Ideal)) X main_v31 = ReferenceIdeal.Read.val_main_v32 x5 := by
  after_results_simp
  rw [h5]
  unfold ReferenceIdeal.Read.val_main_v32 ReferenceIdeal.Read.val_main_v31
  rfl

/-- The first layer's bias as a row: the first of the three biases, which the reference keeps as a vector of 128. -/
theorem stretch0_v34 (h6 : X main_arg6 = x6) :
    StableHlo.after (hostOps0 (F := Ideal)) X main_v34 = shapeCast S1x128 (ReferenceIdeal.Read.val_main_v36 x6) shapeCasts_S128_S1x128 := by
  after_results_simp
  rw [h6]
  unfold ReferenceIdeal.Read.val_main_v36 ReferenceIdeal.Read.val_main_v35
  rfl

/-- All the first call reads, and the reciprocal in-degrees the later stretches read again, at once. -/
theorem stretch0 (h0 : X main_arg0 = x0) (h1 : X main_arg1 = x1) (h2 : X main_arg2 = x2) (h3 : X main_arg3 = x3)
    (h4 : X main_arg4 = x4) (h5 : X main_arg5 = x5) (h6 : X main_arg6 = x6) :
    StableHlo.after (hostOps0 (F := Ideal)) X main_v6 = ReferenceIdeal.Read.val_main_v6 x0 x3
    ∧ StableHlo.after (hostOps0 (F := Ideal)) X main_v27 = ReferenceIdeal.Read.val_main_v27 x0 x1 x2 x3
    ∧ StableHlo.after (hostOps0 (F := Ideal)) X main_v29 = ReferenceIdeal.Read.val_main_v29 x4
    ∧ StableHlo.after (hostOps0 (F := Ideal)) X main_v31 = ReferenceIdeal.Read.val_main_v32 x5
    ∧ StableHlo.after (hostOps0 (F := Ideal)) X main_v34 = shapeCast S1x128 (ReferenceIdeal.Read.val_main_v36 x6) shapeCasts_S128_S1x128
    ∧ StableHlo.after (hostOps0 (F := Ideal)) X main_v14 = ReferenceIdeal.Read.val_main_v14 x2 :=
  ⟨stretch0_v6 X x0 x3 h0 h3, stretch0_v27 X x0 x1 x2 x3 h0 h1 h2 h3, stretch0_v29 X x4 h4, stretch0_v31 X x5 h5,
    stretch0_v34 X x6 h6, stretch0_v14 X x2 h2⟩

end Cert.KernelIdeal.Hand

end
-- ==== Proof.KIHostB.lean ====
/-
  Two stretches of whole-array operations between the layers, which both programs spell alike.

  Between two layers both programs compute the next layer's neighbour means — gather the rows of the previous layer's
  output at the edges' sources (a negative source counted from the end), add each gathered row into its target's row
  starting from zeros, and scale each row by the reciprocal of the node's in-degree (at least one) — and cut the next
  weight matrices and bias row out of the stacked parameters. Given that the previous layer's output and the reciprocal
  in-degrees agree, the two spellings are the same term, operation by operation.
-/
import proofs.«155506_j4097398800995_1_alg».proof.Proof.Gen.KernelIdeal.Regions
import proofs.«155506_j4097398800995_1_alg».proof.Proof.Gen.ReferenceIdeal.Read
import Idealize.ShloMosaic.Lib.StableHlo.Run

set_option maxRecDepth 1044

noncomputable section

namespace Cert.KernelIdeal.Hand

open Idealize.ShloMosaic Idealize.ShloMosaic.TcCoe Idealize.SL.Sem Cert.KernelIdeal Cert.KernelIdeal.Gen

section
variable (X : Valuation τ sig (Elt Ideal))
  (x0 : (⟨S100000, .i32⟩ : BufTy).Contents (Elt Ideal)) (x1 x2 : (⟨S1600000, .i32⟩ : BufTy).Contents (Elt Ideal))
  (x3 : (⟨S5000x128, .f32⟩ : BufTy).Contents (Elt Ideal)) (x4 x5 : (⟨S3x128x128, .f32⟩ : BufTy).Contents (Elt Ideal))
  (x6 : (⟨S3x128, .f32⟩ : BufTy).Contents (Elt Ideal))

/-- The stretch between the first and the second layer: the second layer's neighbour means, weights and bias row. -/
theorem stretch1 (h35 : X main_v35 = Cert.ReferenceIdeal.Read.val_main_v46 x0 x1 x2 x3 x4 x5 x6)
    (h14 : X main_v14 = Cert.ReferenceIdeal.Read.val_main_v14 x2) (h1 : X main_arg1 = x1) (h2 : X main_arg2 = x2)
    (h4 : X main_arg4 = x4) (h5 : X main_arg5 = x5) (h6 : X main_arg6 = x6) :
    StableHlo.after hostOps1 X main_v48 = Cert.ReferenceIdeal.Read.val_main_v59 x0 x1 x2 x3 x4 x5 x6
      ∧ StableHlo.after hostOps1 X main_v50 = Cert.ReferenceIdeal.Read.val_main_v61 x4
      ∧ StableHlo.after hostOps1 X main_v52 = Cert.ReferenceIdeal.Read.val_main_v64 x5
      ∧ StableHlo.after hostOps1 X main_v55 = shapeCast S1x128 (Cert.ReferenceIdeal.Read.val_main_v68 x6) shapeCasts_S128_S1x128 := by
  refine ⟨?_, ?_, ?_, ?_⟩
  · after_results_simp
    rw [h35, h14, h1, h2]
    unfold Cert.ReferenceIdeal.Read.val_main_v59 Cert.ReferenceIdeal.Read.val_main_v58 Cert.ReferenceIdeal.Read.val_main_v57
      Cert.ReferenceIdeal.Read.val_main_v56 Cert.ReferenceIdeal.Read.val_main_v55 Cert.ReferenceIdeal.Read.val_main_v54
      Cert.ReferenceIdeal.Read.val_main_cst_10 Cert.ReferenceIdeal.Read.val_main_v53 Cert.ReferenceIdeal.Read.val_main_v52
      Cert.ReferenceIdeal.Read.val_main_v51 Cert.ReferenceIdeal.Read.val_main_v50 Cert.ReferenceIdeal.Read.val_main_v49
      Cert.ReferenceIdeal.Read.val_main_c_9 Cert.ReferenceIdeal.Read.val_main_v48 Cert.ReferenceIdeal.Read.val_main_v47
      Cert.ReferenceIdeal.Read.val_main_c_8
    rfl
  · after_results_simp
    rw [h4]
    unfold Cert.ReferenceIdeal.Read.val_main_v61 Cert.ReferenceIdeal.Read.val_main_v60
    rfl
  · after_results_simp
    rw [h5]
    unfold Cert.ReferenceIdeal.Read.val_main_v64 Cert.ReferenceIdeal.Read.val_main_v63
    rfl
  · after_results_simp
    rw [h6]
    unfold Cert.ReferenceIdeal.Read.val_main_v68 Cert.ReferenceIdeal.Read.val_main_v67
    rfl

end

end Cert.KernelIdeal.Hand

end
-- ==== Proof.KIHostC.lean ====
/-
  The host operations before the third call, against the reference's stages.

  Between the second call and the third the program prepares the third layer's operands from the second layer's
  value: the mean over each node's incoming edges of the source nodes' rows of that value (the rows gathered at the
  edges' sources, summed at the edges' targets, times the reciprocal in-degree along the row), and the third layer's
  two weight matrices and its bias, cut out of the stacks of the three layers', the bias as a row. From any contents of
  the buffers at which the second call's result holds the reference's second-layer value, the reciprocal in-degrees
  hold the reference's, and the arguments are in place, each is the reference's stage: the two spell the same term,
  operation for operation, over the same two operands.
-/
import proofs.«155506_j4097398800995_1_alg».proof.Proof.Gen.KernelIdeal.Regions
import proofs.«155506_j4097398800995_1_alg».proof.Proof.Gen.ReferenceIdeal.Read
import Idealize.ShloMosaic.Lib.StableHlo.Run

noncomputable section

namespace Cert.KernelIdeal.Hand

open Idealize.ShloMosaic Idealize.ShloMosaic.TcCoe
open Idealize.SL.Sem
open Cert.KernelIdeal Cert.KernelIdeal.Gen

-- any contents of the buffers, and the seven arguments: the node identifiers, the edges' sources and targets, the
-- embedding table, the two stacks of weight matrices and the stack of biases
variable (X : Valuation τ sig (Elt Ideal))
variable (x0 : (⟨S100000, .i32⟩ : BufTy).Contents (Elt Ideal)) (x1 x2 : (⟨S1600000, .i32⟩ : BufTy).Contents (Elt Ideal))
  (x3 : (⟨S5000x128, .f32⟩ : BufTy).Contents (Elt Ideal)) (x4 x5 : (⟨S3x128x128, .f32⟩ : BufTy).Contents (Elt Ideal))
  (x6 : (⟨S3x128, .f32⟩ : BufTy).Contents (Elt Ideal))

/-- The neighbour means of the second layer's value: its rows gathered at the edges' sources (a source below zero
    counted from the end), summed at the edges' targets, each node's sum times its reciprocal in-degree. -/
theorem stretch2_v69 (h56 : X main_v56 = Cert.ReferenceIdeal.Read.val_main_v78 x0 x1 x2 x3 x4 x5 x6) (h14 : X main_v14 = Cert.ReferenceIdeal.Read.val_main_v14 x2)
    (h1 : X main_arg1 = x1) (h2 : X main_arg2 = x2) :
    StableHlo.after (hostOps2 (F := Ideal)) X main_v69 = Cert.ReferenceIdeal.Read.val_main_v91 x0 x1 x2 x3 x4 x5 x6 := by
  after_results_simp
  rw [h56, h14, h1, h2]
  unfold ReferenceIdeal.Read.val_main_v91 ReferenceIdeal.Read.val_main_v90 ReferenceIdeal.Read.val_main_v89 ReferenceIdeal.Read.val_main_v88 ReferenceIdeal.Read.val_main_v87 ReferenceIdeal.Read.val_main_v86 ReferenceIdeal.Read.val_main_cst_14 ReferenceIdeal.Read.val_main_v85 ReferenceIdeal.Read.val_main_v84 ReferenceIdeal.Read.val_main_v83 ReferenceIdeal.Read.val_main_v82 ReferenceIdeal.Read.val_main_v81 ReferenceIdeal.Read.val_main_c_13 ReferenceIdeal.Read.val_main_v80 ReferenceIdeal.Read.val_main_v79 ReferenceIdeal.Read.val_main_c_12
  rfl

/-- The third layer's weight matrix on a node's own row: the last of the three in its stack. -/
theorem stretch2_v71 (h4 : X main_arg4 = x4) :
    StableHlo.after (hostOps2 (F := Ideal)) X main_v71 = Cert.ReferenceIdeal.Read.val_main_v93 x4 := by
  after_results_simp
  rw [h4]
  unfold ReferenceIdeal.Read.val_main_v93 ReferenceIdeal.Read.val_main_v92
  rfl

/-- The third layer's weight matrix on the neighbour mean: the last of the three in its stack. -/
theorem stretch2_v73 (h5 : X main_arg5 = x5) :
    StableHlo.after (hostOps2 (F := Ideal)) X main_v73 = Cert.ReferenceIdeal.Read.val_main_v96 x5 := by
  after_results_simp
  rw [h5]
  unfold ReferenceIdeal.Read.val_main_v96 ReferenceIdeal.Read.val_main_v95
  rfl

/-- The third layer's bias as a row: the last of the three biases, which the reference keeps as a vector of 128. -/
theorem stretch2_v76 (h6 : X main_arg6 = x6) :
    StableHlo.after (hostOps2 (F := Ideal)) X main_v76 = shapeCast S1x128 (Cert.ReferenceIdeal.Read.val_main_v100 x6) shapeCasts_S128_S1x128 := by
  after_results_simp
  rw [h6]
  unfold ReferenceIdeal.Read.val_main_v100 ReferenceIdeal.Read.val_main_v99
  rfl

/-- All the third call reads of what the host prepares, at once. -/
theorem stretch2 (h56 : X main_v56 = Cert.ReferenceIdeal.Read.val_main_v78 x0 x1 x2 x3 x4 x5 x6) (h14 : X main_v14 = Cert.ReferenceIdeal.Read.val_main_v14 x2)
    (h1 : X main_arg1 = x1) (h2 : X main_arg2 = x2) (h4 : X main_arg4 = x4) (h5 : X main_arg5 = x5) (h6 : X main_arg6 = x6) :
    StableHlo.after hostOps2 X main_v69 = Cert.ReferenceIdeal.Read.val_main_v91 x0 x1 x2 x3 x4 x5 x6
    ∧ StableHlo.after hostOps2 X main_v71 = Cert.ReferenceIdeal.Read.val_main_v93 x4
    ∧ StableHlo.after hostOps2 X main_v73 = Cert.ReferenceIdeal.Read.val_main_v96 x5
    ∧ StableHlo.after hostOps2 X main_v76 = shapeCast S1x128 (Cert.ReferenceIdeal.Read.val_main_v100 x6) shapeCasts_S128_S1x128 :=
  ⟨stretch2_v69 X x0 x1 x2 x3 x4 x5 x6 h56 h14 h1 h2, stretch2_v71 X x4 h4, stretch2_v73 X x5 h5, stretch2_v76 X x6 h6⟩

end Cert.KernelIdeal.Hand

end
-- ==== Proof.RefLayer.lean ====
/-
  The whole-matrix program's layer, read at an entry.

  The whole-matrix program computes a layer on all 100000 nodes at once: two matrix products with the two weight
  matrices, the bias row stretched down the rows, the rectifier, each row's sum of squares, its square root floored at the
  small positive constant and stretched along the columns, the quotient, and the embedding matrix added back. Entry (r, q)
  of that chain only looks at row r of the three node matrices, and is the one-node layer of row r at column q. The
  program runs this chain three times, on the previous layer's output and that layer's neighbour means.
-/
import proofs.«155506_j4097398800995_1_alg».proof.Proof.Gen.ReferenceIdeal.Read
import proofs.«155506_j4097398800995_1_alg».proof.Proof.Layer
import proofs.«155506_j4097398800995_1_alg».proof.Proof.LibColumnBlocks
import proofs.«155506_j4097398800995_1_alg».proof.Proof.LibCastForms
import proofs.«155506_j4097398800995_1_alg».proof.Proof.LibRowLayers
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefLayer

open Cert.ReferenceIdeal Cert.ReferenceIdeal.Gen Cert.ReferenceIdeal.Read Cert.SageLayer Idealize.ShloMosaic
  Idealize.ShloMosaic.ValueIdx

/-- The rectified matrix: `max (h · Ws + n · Wn + b) 0`, the bias row stretched down the rows. -/
def hostAct (h n : FVec Ideal S100000x128 .f32) (Ws Wn : FVec Ideal S128x128 .f32) (b : FVec Ideal S128 .f32) :
    FVec Ideal S100000x128 .f32 :=
  maximumf
    (addf
      (addf (Host.dotGeneral (F := Ideal) dot_S100000x128_S128x128_S100000x128_1_0_0_1_n_n none h Ws)
        (Host.dotGeneral (F := Ideal) dot_S100000x128_S128x128_S100000x128_1_0_0_1_n_n none n Wn))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- Each row's floored Euclidean length, as a one-column matrix. -/
def hostLength (a : FVec Ideal S100000x128 .f32) : FVec Ideal S100000x1 .f32 :=
  maximumf
    (Host.sqrt (F := Ideal)
      (broadcastInDim S100000x1 ![0] bcast_S100000_S100000x1_0
        (Host.reduceAdd (F := Ideal) (mulf a a) (constant (F := Ideal) S_ .f32 0x00000000#32) reducesTo_S100000x128_S100000_d1 h_S_)))
    (broadcastInDim S100000x1 ![] bcast_S_S100000x1 (constant (F := Ideal) S_ .f32 0x2B8CBCCC#32))

/-- The layer on all nodes: the rectified matrix divided row by row by its floored lengths, plus the embeddings. -/
def hostLayer (h n e : FVec Ideal S100000x128 .f32) (Ws Wn : FVec Ideal S128x128 .f32) (b : FVec Ideal S128 .f32) :
    FVec Ideal S100000x128 .f32 :=
  addf
    (Host.divf (F := Ideal) (hostAct h n Ws Wn b)
      (broadcastInDim S100000x128 ![0, 1] bcast_S100000x1_S100000x128_0_1 (hostLength (hostAct h n Ws Wn b))))
    e

/-- The program's matrix product at (r, q): the sum over k of `lhs (r, k) · rhs (k, q)`. -/
theorem dot_apply (lhs : FVec Ideal S100000x128 .f32) (rhs : FVec Ideal S128x128 .f32) (r : Fin 100000) (q : Fin 128) :
    Host.dotGeneral (F := Ideal) dot_S100000x128_S128x128_S100000x128_1_0_0_1_n_n none lhs rhs (ix2 r q)
      = ∑ k : Fin 128, lhs (ix2 r k) * rhs (ix2 k q) :=
  LibColumnBlocks.hostDot_apply dot_S100000x128_S128x128_S100000x128_1_0_0_1_n_n rfl rfl rfl rfl
    (by dot_lhs0 dot_S100000x128_S128x128_S100000x128_1_0_0_1_n_n)
    (by dot_rhs1 dot_S100000x128_S128x128_S100000x128_1_0_0_1_n_n) lhs rhs r q none

/-- The rectified matrix at (r, q) is the one-node rectified row of row r at column q. -/
theorem hostAct_apply (h n : FVec Ideal S100000x128 .f32) (Ws Wn : FVec Ideal S128x128 .f32) (b : FVec Ideal S128 .f32)
    (r : Fin 100000) (q : Fin 128) :
    hostAct h n Ws Wn b (ix2 r q) = act (fun k => h (ix2 r k)) (fun k => n (ix2 r k)) Ws Wn (fun j => b (ix1 j)) q := by
  unfold hostAct act
  rw [LibRowLayers.host_relu, addf_apply, addf_apply, dot_apply, dot_apply, LibCastForms.bcast_1b_ab_apply, LibCastForms.bcast_row]

/-- A row's sum of squares: the program's sum over the column axis from a zero start. -/
theorem sumsq_apply (a : FVec Ideal S100000x128 .f32) (r : Fin 100000) :
    Host.reduceAdd (F := Ideal) (mulf a a) (constant (F := Ideal) S_ .f32 0x00000000#32) reducesTo_S100000x128_S100000_d1 h_S_ (ix1 r)
      = ∑ k : Fin 128, a (ix2 r k) * a (ix2 r k) := by
  rw [hostReduceAdd_apply, Ideal.hostReduceAdd_single reducesTo_S100000x128_S100000_d1 (by decide), constant_apply,
    Ideal.ofBits_zero_f32, zero_add]
  refine Finset.sum_congr rfl fun k _ => ?_
  rw [mulf_apply]
  have e : (by decide : S100000x128.Reduces [1] S100000).lift (ix1 r) k = ix2 r k :=
    funext fun c => Fin.ext (by match c with | ⟨0, _⟩ => rfl | ⟨1, _⟩ => rfl)
  rw [e]
  rfl

/-- The program's square root at an index is the extended reals' square root of the element. -/
theorem hostSqrt_apply {s : Shape} (x : FVec Ideal s .f32) (i : s.Idx) : Host.sqrt (F := Ideal) x i = Ideal.sqrt (x i) := rfl

/-- The floored length of row r. -/
theorem hostLength_apply (a : FVec Ideal S100000x128 .f32) (r : Fin 100000) (z : Fin 1) :
    hostLength a (ix2 r z) = rowLength (fun k => a (ix2 r k)) := by
  unfold hostLength rowLength lengthFloor
  rw [maximumf_apply, hostSqrt_apply, LibCastForms.bcast_col, sumsq_apply, broadcastInDim_scalar_apply, constant_apply]

/-- Entry (r, q) of the layer on all nodes is the one-node layer of row r at column q. -/
theorem hostLayer_apply (h n e : FVec Ideal S100000x128 .f32) (Ws Wn : FVec Ideal S128x128 .f32) (b : FVec Ideal S128 .f32)
    (r : Fin 100000) (q : Fin 128) :
    hostLayer h n e Ws Wn b (ix2 r q)
      = layer (fun k => h (ix2 r k)) (fun k => n (ix2 r k)) (fun k => e (ix2 r k)) Ws Wn (fun j => b (ix1 j)) q := by
  unfold hostLayer layer
  rw [addf_apply, hostDivf_apply, LibCastForms.bcast_a1_ab_apply, hostLength_apply, hostAct_apply]
  have e1 : (fun k => hostAct h n Ws Wn b (ix2 r k))
      = act (fun k => h (ix2 r k)) (fun k => n (ix2 r k)) Ws Wn (fun j => b (ix1 j)) :=
    funext fun k => hostAct_apply h n Ws Wn b r k
  rw [e1]

/-! ## The program's three layers are this chain -/

section Layers
variable (x0 : (⟨S100000, .i32⟩ : BufTy).Contents (Elt Ideal)) (x1 x2 : (⟨S1600000, .i32⟩ : BufTy).Contents (Elt Ideal))
  (x3 : (⟨S5000x128, .f32⟩ : BufTy).Contents (Elt Ideal)) (x4 x5 : (⟨S3x128x128, .f32⟩ : BufTy).Contents (Elt Ideal))
  (x6 : (⟨S3x128, .f32⟩ : BufTy).Contents (Elt Ideal))

/-- The first layer: on the gathered embeddings, their neighbour means, and the first weights and bias. -/
theorem layer1_eq :
    val_main_v46 (F := Ideal) x0 x1 x2 x3 x4 x5 x6
      = hostLayer (val_main_v6 (F := Ideal) x0 x3) (val_main_v27 (F := Ideal) x0 x1 x2 x3) (val_main_v6 (F := Ideal) x0 x3)
          (val_main_v29 (F := Ideal) x4) (val_main_v32 (F := Ideal) x5) (val_main_v36 (F := Ideal) x6) := rfl

/-- The second layer: on the first layer's output, its neighbour means, and the second weights and bias. -/
theorem layer2_eq :
    val_main_v78 (F := Ideal) x0 x1 x2 x3 x4 x5 x6
      = hostLayer (val_main_v46 (F := Ideal) x0 x1 x2 x3 x4 x5 x6) (val_main_v59 (F := Ideal) x0 x1 x2 x3 x4 x5 x6)
          (val_main_v6 (F := Ideal) x0 x3) (val_main_v61 (F := Ideal) x4) (val_main_v64 (F := Ideal) x5)
          (val_main_v68 (F := Ideal) x6) := rfl

/-- The third layer: on the second layer's output, its neighbour means, and the third weights and bias. -/
theorem layer3_eq :
    val_main_v110 (F := Ideal) x0 x1 x2 x3 x4 x5 x6
      = hostLayer (val_main_v78 (F := Ideal) x0 x1 x2 x3 x4 x5 x6) (val_main_v91 (F := Ideal) x0 x1 x2 x3 x4 x5 x6)
          (val_main_v6 (F := Ideal) x0 x3) (val_main_v93 (F := Ideal) x4) (val_main_v96 (F := Ideal) x5)
          (val_main_v100 (F := Ideal) x6) := rfl

end Layers

end Cert.ReferenceIdeal.RefLayer

end
-- ==== Proof.Bridge.lean ====
/-
  The kernel program and the reference compute one function of the arguments.

  Both programs look the embedding up, count in-degrees, and then three times: gather the features along the edges,
  sum them per destination, scale by the inverse degree, and apply the layer. The host operations around the layer are
  spelt alike in the two programs, so the buffers' contents at each boundary of the kernel program are the reference's
  stages as soon as the layers agree; and each call's result array is the layer's value row by row, which is what the
  reference's host chain computes at every entry. Layer by layer, the kernel's result is the reference's.
-/
import proofs.«155506_j4097398800995_1_alg».proof.Proof.KIValue
import proofs.«155506_j4097398800995_1_alg».proof.Proof.KIRegions
import proofs.«155506_j4097398800995_1_alg».proof.Proof.KIHost
import proofs.«155506_j4097398800995_1_alg».proof.Proof.KIHostB
import proofs.«155506_j4097398800995_1_alg».proof.Proof.KIHostC
import proofs.«155506_j4097398800995_1_alg».proof.Proof.RefLayer

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.SageLayer

/-- A vector recast as the one row of a matrix: entry (z, b) is the vector's entry b. -/
theorem cast_row {B : ℕ} {α : Type} (x : (⟨1, ![B]⟩ : Shape).Idx → α) (h : (⟨1, ![B]⟩ : Shape).ShapeCasts ⟨2, ![1, B]⟩)
    (z : Fin 1) (b : Fin B) : shapeCast ⟨2, ![1, B]⟩ x h (ix2 z b) = x (ix1 b) := by
  refine shapeCast_apply x h _ _ ?_
  rw [Shape.rowMajor_val_one, Shape.rowMajor_val_two]
  show b.val = z.val * B + b.val
  have := z.isLt
  have hz : z.val = 0 := by omega
  rw [hz, Nat.zero_mul, Nat.zero_add]

/-- The layer applied to every row, with the bias vector recast as a row, is the reference's host chain. -/
theorem layerArr_host (h n e : FVec Ideal S100000x128 .f32) (Ws Wn : FVec Ideal S128x128 .f32) (b : FVec Ideal S128 .f32) :
    layerArr h n e Ws Wn (shapeCast S1x128 b shapeCasts_S128_S1x128) = Cert.ReferenceIdeal.RefLayer.hostLayer h n e Ws Wn b := by
  funext i
  obtain ⟨r, q, rfl⟩ : ∃ (r : Fin 100000) (q : Fin 128), i = ix2 r q := ⟨i 0, i 1, eq_ix2 i⟩
  rw [Cert.ReferenceIdeal.RefLayer.hostLayer_apply]
  have hb : (fun j : Fin 128 => shapeCast S1x128 b shapeCasts_S128_S1x128 (ix2 (0 : Fin 1) j)) = fun j => b (ix1 j) :=
    funext fun j => cast_row b shapeCasts_S128_S1x128 0 j
  show layer _ _ _ Ws Wn (fun j : Fin 128 => shapeCast S1x128 b shapeCasts_S128_S1x128 (ix2 (0 : Fin 1) j)) q = _
  rw [hb]

variable (m : (ℓ : Loc nD τ sig) → Buf (Elt Ideal) ℓ) (c : Dev nD)

/-- No host operation and no call writes an argument: each boundary holds the arguments as launched. -/
theorem W1_arg (b : Ref sig .tc) (h : b ∉ hostOps0_W) : W1 m c b = m ((c : Thread nD τ).loc b) := keep0 (W0 m c) b h
theorem W2_arg (b : Ref sig .tc) (h : b ∉ hostOps0_W) (h' : b ≠ main_v35) : W2 m c b = m ((c : Thread nD τ).loc b) :=
  (W2_of_ne m c b h').trans (W1_arg m c b h)
theorem W3_arg (b : Ref sig .tc) (h : b ∉ hostOps0_W) (h' : b ≠ main_v35) (h1 : b ∉ hostOps1_W) : W3 m c b = m ((c : Thread nD τ).loc b) :=
  (keep1 (W2 m c) b h1).trans (W2_arg m c b h h')
theorem W4_arg (b : Ref sig .tc) (h : b ∉ hostOps0_W) (h' : b ≠ main_v35) (h1 : b ∉ hostOps1_W) (h1' : b ≠ main_v56) :
    W4 m c b = m ((c : Thread nD τ).loc b) :=
  (W4_of_ne m c b h1').trans (W3_arg m c b h h' h1)

/-- After the first stretch: the embedding, the first neighbour means, the first weights and bias, the inverse degrees. -/
theorem first_stretch :
    W1 m c main_v6 = Cert.ReferenceIdeal.Read.val_main_v6 (m ((c : Thread nD τ).loc main_arg0)) (m ((c : Thread nD τ).loc main_arg3))
    ∧ W1 m c main_v27 = Cert.ReferenceIdeal.Read.val_main_v27 (m ((c : Thread nD τ).loc main_arg0)) (m ((c : Thread nD τ).loc main_arg1)) (m ((c : Thread nD τ).loc main_arg2)) (m ((c : Thread nD τ).loc main_arg3))
    ∧ W1 m c main_v29 = Cert.ReferenceIdeal.Read.val_main_v29 (m ((c : Thread nD τ).loc main_arg4))
    ∧ W1 m c main_v31 = Cert.ReferenceIdeal.Read.val_main_v32 (m ((c : Thread nD τ).loc main_arg5))
    ∧ W1 m c main_v34 = shapeCast S1x128 (Cert.ReferenceIdeal.Read.val_main_v36 (m ((c : Thread nD τ).loc main_arg6))) shapeCasts_S128_S1x128
    ∧ W1 m c main_v14 = Cert.ReferenceIdeal.Read.val_main_v14 (m ((c : Thread nD τ).loc main_arg2)) :=
  stretch0 (W0 m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) rfl rfl rfl rfl rfl rfl rfl

/-- The first call's result is the reference's first layer. -/
theorem layer_one : W2 m c main_v35 = Cert.ReferenceIdeal.Read.val_main_v46 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨e6, e27, e29, e31, e34, -⟩ := first_stretch m c
  rw [W2_self, final0 (V1 m) c]
  show layerArr (W1 m c main_v6) (W1 m c main_v27) (W1 m c main_v6) (W1 m c main_v29) (W1 m c main_v31) (W1 m c main_v34) = _
  rw [e6, e27, e29, e31, e34, layerArr_host, ← Cert.ReferenceIdeal.RefLayer.layer1_eq]

/-- After the second stretch. -/
theorem second_stretch :
    W3 m c main_v48 = Cert.ReferenceIdeal.Read.val_main_v59 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ W3 m c main_v50 = Cert.ReferenceIdeal.Read.val_main_v61 (m ((c : Thread nD τ).loc main_arg4))
    ∧ W3 m c main_v52 = Cert.ReferenceIdeal.Read.val_main_v64 (m ((c : Thread nD τ).loc main_arg5))
    ∧ W3 m c main_v55 = shapeCast S1x128 (Cert.ReferenceIdeal.Read.val_main_v68 (m ((c : Thread nD τ).loc main_arg6))) shapeCasts_S128_S1x128 :=
  stretch1 (W2 m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (layer_one m c)
    ((W2_of_ne m c main_v14 (by decide)).trans (first_stretch m c).2.2.2.2.2)
    (W2_arg m c main_arg1 (by decide) (by decide)) (W2_arg m c main_arg2 (by decide) (by decide))
    (W2_arg m c main_arg4 (by decide) (by decide)) (W2_arg m c main_arg5 (by decide) (by decide)) (W2_arg m c main_arg6 (by decide) (by decide))

/-- The second call's result is the reference's second layer. -/
theorem layer_two : W4 m c main_v56 = Cert.ReferenceIdeal.Read.val_main_v78 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨e48, e50, e52, e55⟩ := second_stretch m c
  have e35 : W3 m c main_v35 = Cert.ReferenceIdeal.Read.val_main_v46 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (keep1 (W2 m c) main_v35 (by decide)).trans (layer_one m c)
  have e6 : W3 m c main_v6 = Cert.ReferenceIdeal.Read.val_main_v6 (m ((c : Thread nD τ).loc main_arg0)) (m ((c : Thread nD τ).loc main_arg3)) :=
    (keep1 (W2 m c) main_v6 (by decide)).trans ((W2_of_ne m c main_v6 (by decide)).trans (first_stretch m c).1)
  rw [W4_self, final1 (V3 m) c]
  show layerArr (W3 m c main_v35) (W3 m c main_v48) (W3 m c main_v6) (W3 m c main_v50) (W3 m c main_v52) (W3 m c main_v55) = _
  rw [e35, e48, e6, e50, e52, e55, layerArr_host, ← Cert.ReferenceIdeal.RefLayer.layer2_eq]

/-- After the third stretch. -/
theorem third_stretch :
    W5 m c main_v69 = Cert.ReferenceIdeal.Read.val_main_v91 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ W5 m c main_v71 = Cert.ReferenceIdeal.Read.val_main_v93 (m ((c : Thread nD τ).loc main_arg4))
    ∧ W5 m c main_v73 = Cert.ReferenceIdeal.Read.val_main_v96 (m ((c : Thread nD τ).loc main_arg5))
    ∧ W5 m c main_v76 = shapeCast S1x128 (Cert.ReferenceIdeal.Read.val_main_v100 (m ((c : Thread nD τ).loc main_arg6))) shapeCasts_S128_S1x128 :=
  stretch2 (W4 m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (layer_two m c)
    ((W4_of_ne m c main_v14 (by decide)).trans ((keep1 (W2 m c) main_v14 (by decide)).trans
      ((W2_of_ne m c main_v14 (by decide)).trans (first_stretch m c).2.2.2.2.2)))
    (W4_arg m c main_arg1 (by decide) (by decide) (by decide) (by decide)) (W4_arg m c main_arg2 (by decide) (by decide) (by decide) (by decide))
    (W4_arg m c main_arg4 (by decide) (by decide) (by decide) (by decide)) (W4_arg m c main_arg5 (by decide) (by decide) (by decide) (by decide))
    (W4_arg m c main_arg6 (by decide) (by decide) (by decide) (by decide))

/-- The third call's result — the program's result — is the reference's third layer, its result. -/
theorem layer_three : W6 m c main_v77 = Cert.ReferenceIdeal.Read.val_main_v110 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨e69, e71, e73, e76⟩ := third_stretch m c
  have e56 : W5 m c main_v56 = Cert.ReferenceIdeal.Read.val_main_v78 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (keep2 (W4 m c) main_v56 (by decide)).trans (layer_two m c)
  have e6 : W5 m c main_v6 = Cert.ReferenceIdeal.Read.val_main_v6 (m ((c : Thread nD τ).loc main_arg0)) (m ((c : Thread nD τ).loc main_arg3)) :=
    (keep2 (W4 m c) main_v6 (by decide)).trans ((W4_of_ne m c main_v6 (by decide)).trans
      ((keep1 (W2 m c) main_v6 (by decide)).trans ((W2_of_ne m c main_v6 (by decide)).trans (first_stretch m c).1)))
  rw [W6_self, final2 (V5 m) c]
  show layerArr (W5 m c main_v56) (W5 m c main_v69) (W5 m c main_v6) (W5 m c main_v71) (W5 m c main_v73) (W5 m c main_v76) = _
  rw [e56, e69, e6, e71, e73, e76, layerArr_host, ← Cert.ReferenceIdeal.RefLayer.layer3_eq]

end Cert.KernelIdeal.Hand

end
-- ==== Proof.lean ====
/-
  The kernel program — three pipelined calls of one layer body between host gathers and scatter-adds — against its
  reference, a plain array program, over the extended reals; and the two kernel programs' frames.

  Frames. Each kernel program is host operations, a call, host operations, a call, host operations, a call. A call's
  pipeline walks 50 row blocks; its body loads the blocks of its six inputs and stores the layer's value into its output
  block, so every argument array is only ever read. In the first call the feature and the embedding windows read one
  array, held in two halves. The reference has no call: its frame is its run with the result dropped.

  Values. The idealization rewrote nothing, so nothing is owed for it. Each call leaves in its result array the layer's
  value on the rows of the arrays it finds (the blocks tile the rows, and a row of the layer only looks at the same row
  of its operands); the reference's host chain for a layer is the same function of its operands at every entry; the
  host operations around the layers are the same in both programs. Hence, layer by layer, both programs end with one
  array, a function of the arguments on which the two launch memories agree.
-/
import proofs.«155506_j4097398800995_1_alg».proof.Defs
import proofs.«155506_j4097398800995_1_alg».proof.Proof.Gen.Kernel
import proofs.«155506_j4097398800995_1_alg».proof.Proof.Gen.KernelIdeal
import proofs.«155506_j4097398800995_1_alg».proof.Proof.Gen.ReferenceIdeal
import proofs.«155506_j4097398800995_1_alg».proof.Proof.Gen.Pre_finite_inputs
import proofs.«155506_j4097398800995_1_alg».proof.Proof.Gen.ReferenceIdeal.Run
import proofs.«155506_j4097398800995_1_alg».proof.Proof.Gen.ReferenceIdeal.Read
import proofs.«155506_j4097398800995_1_alg».proof.Proof.KFrame
import proofs.«155506_j4097398800995_1_alg».proof.Proof.KIFrame
import proofs.«155506_j4097398800995_1_alg».proof.Proof.Bridge
import Idealize.ShloMosaic.Adequacy
import Idealize.ShloMosaic.Init

noncomputable section

namespace Cert.Proof

open Idealize.ShloMosaic Idealize.SL.Sem

/-- The word-level kernel program runs to the end and leaves its arguments as launched. -/
theorem frame_p : Cert.frame_Kernel := fun m ρ _ => Cert.Kernel.Hand.frame (F := Bits) m ρ

/-- So does its reading over the extended reals. -/
theorem frame_pi : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the third layer's array: the kernel program by its three calls, the reference by its host
    chain, of arguments that agree. -/
theorem algebraic : Cert.algebraic_KernelIdeal_ReferenceIdeal := by
  intro m ρ m' ρ' _ hagree
  refine ⟨fun c => Cert.KernelIdeal.Hand.W6 (F := Ideal) m c (Proc.devRef .tc Cert.KernelIdeal.main_v77), Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v110_eq, (hagree c).1, (hagree c).2.1, (hagree c).2.2.1, (hagree c).2.2.2.1, (hagree c).2.2.2.2.1,
    (hagree c).2.2.2.2.2.1, (hagree c).2.2.2.2.2.2]
  exact (Cert.KernelIdeal.Hand.layer_three m c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
